-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x512 : Shape := ⟨3, ![1, 1024, 512]⟩
abbrev S512 : Shape := ⟨1, ![512]⟩
abbrev S_ : Shape := ⟨0, ![]⟩

class Facts : Prop where
  bcast_S_S1x1024x512 : S_.BroadcastsInDim S1x1024x512 (![] : Fin 0 → Fin S1x1024x512.rank)
  reducesTo_S1x1024x512_S_d0_1_2 : S1x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1x1024x512 .f32) (main_arg1 : FVec F S512 .f32) : IVec S_ 1 :=
  let main_v0 : FVec F S1x1024x512 .f32 := Host.absf main_arg0
  let main_cst : FVec F S_ .f32 := constant S_ .f32 0x7F800000#32
  let main_v1 : FVec F S1x1024x512 .f32 := broadcastInDim S1x1024x512 ![] bcast_S_S1x1024x512 main_cst
  let main_v2 : IVec S1x1024x512 1 := cmpf .olt main_v0 main_v1
  let main_c : IVec S_ 1 := constantI S_ 1 1#1
  let main_v3 : IVec S_ 1 := (fun x v => Host.reduce IntOp.andi x v reducesTo_S1x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S2x1024x512 : Shape := ⟨3, ![2, 1024, 512]⟩
abbrev S512 : Shape := ⟨1, ![512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S2x1024x512 .f32) (main_arg1 : FVec F S512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S1x1024x512 : Shape := ⟨3, ![1, 1024, 512]⟩
abbrev S512 : Shape := ⟨1, ![512]⟩
abbrev S512x512 : Shape := ⟨2, ![512, 512]⟩
abbrev S_ : Shape := ⟨0, ![]⟩
abbrev S1x512x512 : Shape := ⟨3, ![1, 512, 512]⟩
abbrev S512x1 : Shape := ⟨2, ![512, 1]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S512x512, .f32⟩
  | .local _ .vmem, ⟨0, _⟩ => ⟨S1x1024x512, .f32⟩
  | .local _ .vmem, ⟨1, _⟩ => ⟨S512, .f32⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  { ofTc nBuf bufTy 1 5 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 3 → Nat :=
  let c0 : Index := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let c512_i32 : BitVec 32 := 512#32
  let v18 : BitVec 32 := Scalar.muli v17 c512_i32
  let v19 : Index := Scalar.indexCast v18
  let c0_10 : Index := 0#32
  ![0, v19.toNat, 0]
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v26 : BitVec 32 := Scalar.muli v2 c4_i32_13
  let v27 : BitVec 32 := Scalar.addi c0_i32_14 v26
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_15 : BitVec 32 := 2#32
  let v28 : BitVec 32 := Scalar.muli v9 c2_i32_15
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v30 : BitVec 32 := Scalar.muli v8 c1_i32_16
  let v31 : BitVec 32 := Scalar.addi v29 v30
  v31.toNat
def k0_off2 (d0 : Dev nD) : Fin 3 → Nat :=
  let c0_23 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_22 : BitVec 32 := 512#32
  let v38 : BitVec 32 := Scalar.muli v5 c512_i32_22
  let v39 : Index := Scalar.indexCast v38
  let c0_24 : Index := 0#32
  ![0, v39.toNat, 0]
abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  reduces_S512x512_S512 : S512x512.Reduces [1] S512
  shapeCasts_S512_S512x1 : S512.ShapeCasts S512x1
  broadcasts_S512x1_S512x512 : S512x1.Broadcasts S512x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S512x512 : S1x512.Broadcasts S512x512
  hcc0_scratch2 : 3 + S_.numel ≤ 5
  hcc0_scratch3 : 4 + S_.numel ≤ 5
  k0_dev1_lt : ∀ d0 : Dev nD, (k0_dev1 d0) < nD
  k0_off1_inb : ∀ d0 : Dev nD, ∀ a, (k0_off1 d0) a + S1x512x512.size a ≤ S1x1024x512.size a
  k0_dev2_lt : ∀ d0 : Dev nD, (k0_dev2 d0) < nD
  k0_off2_inb : ∀ d0 : Dev nD, ∀ a, (k0_off2 d0) a + S1x512x512.size a ≤ S1x1024x512.size a
  hstage0_0 : ∀ j, (stage0_0 j).IsWhole
  hstage0_1 : ∀ j, (stage0_1 j).IsWhole
  hstage0_2 : ∀ j, (stage0_2 j).IsWhole

variable [Facts₀]

abbrev cc0_scratch2 : DmaSems sig S_ := SemArray.consecutive 3 S_ hcc0_scratch2
abbrev cc0_scratch3 : DmaSems sig S_ := SemArray.consecutive 4 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S2x1024x512_S1024x512_d0 : S2x1024x512.ReducesTo [0] S1024x512
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.Kernel.Protocol.lean ====
/-
  The exchange protocol of the eight devices, as data for the rounds discipline.

  The mesh is 2 × 2 × 2 and a device's linear id is 4x + 2y + z. Every device works with ONE partner, the device
  with the same x and z and the other y (the id with its second bit flipped): the map is an involution, so the eight
  devices fall into four independent pairs. Within a pair each device
    1. signals its partner's barrier semaphore one unit and waits for one unit on its own — after the wait it knows
       its partner is inside the kernel, and it has been handed the partner's landing buffer;
    2. copies its sending buffer (the half of its block of the summands that the partner is responsible for) into the
       partner's landing buffer, crediting its own send semaphore and the partner's receive semaphore;
    3. waits for its send semaphore (the sending buffer is its own again) and for its receive semaphore (its landing
       buffer now holds the partner's sending buffer).
  So each device has three cells — barrier, send, receive —, each with one round of one duty:
    barrier  one unit, paid by the partner's signal, handing over the partner's landing buffer;
    send     the buffer's credit, paid by the device's own copy, handing back the sending buffer as sent;
    receive  the buffer's credit, paid by the partner's copy, handing over the landing buffer as written.
  At launch a device owes its partner one barrier unit and one receive credit. It waits on its barrier cell while it
  still owes the receive credit, so barrier cells sit below receive cells in the waiting order; every other wait is
  made owing nothing.
-/
import proofs.«900393_g7700000000000394_dist_rsrms_v7x_xyz2x2x2_y_m512_d512_bf16_1_alg».proof.Proof.Gen.Kernel
import proofs.«900393_g7700000000000394_dist_rsrms_v7x_xyz2x2x2_y_m512_d512_bf16_1_alg».proof.Proof.Gen.Kernel.Skeleton
import proofs.«900393_g7700000000000394_dist_rsrms_v7x_xyz2x2x2_y_m512_d512_bf16_1_alg».proof.Proof.Gen.Kernel.Launch
import proofs.«900393_g7700000000000394_dist_rsrms_v7x_xyz2x2x2_y_m512_d512_bf16_1_alg».proof.Proof.Gen.Kernel.Points
import proofs.«900393_g7700000000000394_dist_rsrms_v7x_xyz2x2x2_y_m512_d512_bf16_1_alg».proof.Proof.Gen.Kernel.Frame
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's own, and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner: the device with the other y -/

/-- The id 4x + 2y + z with y replaced by 1 − y. -/
def nbr (c : Dev nD) : Dev nD :=
  ⟨(4 * (c.val / 4) + (c.val % 2) + 2) - 2 * ((c.val / 2) % 2), by have h : c.val < 8 := c.isLt; show _ < 8; omega⟩

theorem nbr_nbr (c : Dev nD) : nbr (nbr c) = c := by revert c; decide
theorem nbr_ne (c : Dev nD) : nbr c ≠ c := by revert c; decide

/-- Both printed device-id chains (the signal's and the copy's) name the partner. -/
theorem dev1_eq (c : Dev nD) : (⟨k0_dev1 c, k0_dev1_lt c⟩ : Dev nD) = nbr c := Fin.ext (k0_dev1_eq c)
theorem dev2_eq (c : Dev nD) : (⟨k0_dev2 c, k0_dev2_lt c⟩ : Dev nD) = nbr c := Fin.ext (k0_dev2_eq c)

def pairing : Dev nD ≃ Dev nD := ⟨nbr, nbr, nbr_nbr, nbr_nbr⟩

/-! ## The buffers and the cells -/

/-- The staged block of the summands, the staged scale vector, the staged result; the sending and the landing buffer. -/
abbrev pM : Memref sig .tc .vmem S1x1024x512 .f32 := Memref.whole cc0_stg0_0
abbrev gM : Memref sig .tc .vmem S512 .f32 := Memref.whole cc0_stg1_0
abbrev oM : Memref sig .tc .vmem S512x512 .f32 := Memref.whole cc0_stg2_0
abbrev sM : Memref sig .tc .vmem S512x512 .bf16 := Memref.whole cc0_scratch0
abbrev rM : Memref sig .tc .vmem S512x512 .bf16 := Memref.whole cc0_scratch1

/-- The runtime's barrier semaphore (not scoped to the launch); the send and receive semaphores (scoped scratch). -/
abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one whole 512 × 512 bf16 buffer. -/
abbrev NC : ℕ := (rM : Memref sig .tc .vmem S512x512 .bf16).view.dmaCredit
theorem NC_pos : 0 < NC := View.dmaCredit_pos _ (by decide)

/-! ## Contents -/

abbrev t₀ : Fin cfg0.N := t0_0

/-- The rectangles the body reads its block of the summands through: the rows its partner is responsible for, and its own. -/
abbrev rOther (c : Dev nD) : Rect S1x1024x512 := Rect.unit (s := S1x1024x512) (k0_off1 c) S1x512x512.size (k0_off1_inb c)
abbrev rOwn (c : Dev nD) : Rect S1x1024x512 := Rect.unit (s := S1x1024x512) (k0_off2 c) S1x512x512.size (k0_off2_inb c)
abbrev r0 : Rect S512x512 := Rect.unit (s := S512x512) ![0, 0] S512x512.size inb_S512x512_S512x512_0_0
abbrev rg : Rect S512 := Rect.unit (s := S512) ![0] S512.size inb_S512_S512_0

/-- Device `c`'s staged block of the summands and staged scale vector: its argument arrays as launched. -/
def pblk (c : Dev nD) : (cc0_stg0_0 : Ref sig .tc).ty.Contents (Elt F) := iblk m c 0 t₀
def gblk (c : Dev nD) : (cc0_stg1_0 : Ref sig .tc).ty.Contents (Elt F) := iblk m c 1 t₀

/-- What device `c` sends: the partner's rows of its block, rounded to the narrow format. -/
def sent (c : Dev nD) : (cc0_scratch0 : Ref sig .tc).ty.Contents (Elt F) :=
  k0_pay2 ((pM : Memref sig .tc .vmem S1x1024x512 .f32).view.readAt (Elt F) (rOther c).toLoadRect (pblk m c))

/-- What lands on device `c`: what its partner sent. -/
def landed (c : Dev nD) : Buf (Elt F) ((rM : Memref sig .tc .vmem S512x512 .bf16).view.loc (c : Thread nD τ)) := sent m (nbr c)

/-- Device `c`'s result: its own rows plus what landed, normalised and scaled. -/
def outAt (c : Dev nD) : (cc0_stg2_0 : Ref sig .tc).ty.Contents (Elt F) :=
  k0_pay1 ((pM : Memref sig .tc .vmem S1x1024x512 .f32).view.readAt (Elt F) (rOwn c).toLoadRect (pblk m c)) (landed m c) (gblk m c)

def sPts (c : Dev nD) (f : Buf (Elt F) ((sM : Memref sig .tc .vmem S512x512 .bf16).view.loc (c : Thread nD τ))) : sProp 𝕄 :=
  (sM : Memref sig .tc .vmem S512x512 .bf16).view.loc (c : Thread nD τ) ↦[(sM : Memref sig .tc .vmem S512x512 .bf16).view.set]{fullShare} f
def rPts (c : Dev nD) (f : Buf (Elt F) ((rM : Memref sig .tc .vmem S512x512 .bf16).view.loc (c : Thread nD τ))) : sProp 𝕄 :=
  (rM : Memref sig .tc .vmem S512x512 .bf16).view.loc (c : Thread nD τ) ↦[(rM : Memref sig .tc .vmem S512x512 .bf16).view.set]{fullShare} f

omit [FloatOps F] in
instance sPts_storable (c : Dev nD) (f) : BI.Storable (upEmb : UEmb _ 𝕄) (sPts (F := F) c f) := by unfold sPts; infer_instance
omit [FloatOps F] in
instance rPts_storable (c : Dev nD) (f) : BI.Storable (upEmb : UEmb _ 𝕄) (rPts (F := F) c f) := by unfold rPts; infer_instance

omit [FloatOps F] in
theorem sPts_eq (c : Dev nD) (f : Buf (Elt F) ((c : Thread nD τ).loc cc0_scratch0)) :
    sPts c f = (((c : Thread nD τ).loc cc0_scratch0) ↦{fullShare} f : sProp 𝕄) := by unfold sPts; rw [View.set_whole]
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [View.set_whole]

/-- A whole buffer overwritten by a whole buffer holds the source's contents. -/
theorem landed_eq (c : Dev nD) (fd : Buf (Elt F) ((rM : Memref sig .tc .vmem S512x512 .bf16).view.loc (c : Thread nD τ)))
    (fs : (cc0_scratch0 : Ref sig .tc).ty.Contents (Elt F)) :
    (rM : Memref sig .tc .vmem S512x512 .bf16).view.write (Elt F) fd ((sM : Memref sig .tc .vmem S512x512 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule: one round, one duty per cell -/

/-- What the partner's signal hands device `c`: the partner's landing buffer, and that the partner's receive cell is open. -/
def barPay (c : Dev nD) : sProp 𝕄 := iprop((∃ f, rPts (nbr c) f) ∗ reached EX (recvCell (nbr c)) 0)
def recvPay (c : Dev nD) : sProp 𝕄 := rPts c (landed m c)
def sendPay (c : Dev nD) : sProp 𝕄 := sPts c (sent m c)

abbrev IsOurs (g : GSem nD τ sig) : Prop := g.1.2 = .tc ∧ (g.2 = .reg barS ∨ g.2 = .dma sendS.sem ∨ g.2 = .dma recvS.sem)

def pairRd : Rounds.Schedule (GSem nD τ sig) Unit 𝕄 where
  duties g r := if r = 0 ∧ IsOurs g then {()} else ∅
  unitless _ := False
  amount g _ _ := if g.2 = .reg barS then 1 else NC
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact NC_pos

instance pairRd_payload_storable (g : GSem nD τ sig) (r : ℕ) (d : Unit) :
    BI.Storable (upEmb : UEmb _ 𝕄) ((pairRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Tables
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (pairRd (F := F) m).duties (barCell c) 0 = {()} := by dsimp only [pairRd]; exact if_pos ⟨rfl, rfl, .inl rfl⟩
theorem duties_send : (pairRd (F := F) m).duties (sendCell c) 0 = {()} := by dsimp only [pairRd]; exact if_pos ⟨rfl, rfl, .inr (.inl rfl)⟩
theorem duties_recv : (pairRd (F := F) m).duties (recvCell c) 0 = {()} := by dsimp only [pairRd]; exact if_pos ⟨rfl, rfl, .inr (.inr rfl)⟩
theorem duties_later (g : GSem nD τ sig) : ∀ r, 1 ≤ r → (pairRd (F := F) m).duties g r = ∅ :=
  fun r hr => by dsimp only [pairRd]; rw [if_neg fun h => by omega]

theorem amount_bar (d : Unit) : (pairRd (F := F) m).amount (barCell c) 0 d = 1 := by dsimp only [pairRd]; exact if_pos rfl
theorem amount_send (d : Unit) : (pairRd (F := F) m).amount (sendCell c) 0 d = NC := by dsimp only [pairRd]; exact if_neg send_ne_bar
theorem amount_recv (d : Unit) : (pairRd (F := F) m).amount (recvCell c) 0 d = NC := by dsimp only [pairRd]; exact if_neg recv_ne_bar

theorem expect_bar : (pairRd (F := F) m).expect (barCell c) 0 = 1 := by
  unfold Schedule.expect Schedule.amountOf; rw [duties_bar, Finset.sum_singleton, amount_bar]
theorem expect_send : (pairRd (F := F) m).expect (sendCell c) 0 = NC := by
  unfold Schedule.expect Schedule.amountOf; rw [duties_send, Finset.sum_singleton, amount_send]
theorem expect_recv : (pairRd (F := F) m).expect (recvCell c) 0 = NC := by
  unfold Schedule.expect Schedule.amountOf; rw [duties_recv, Finset.sum_singleton, amount_recv]

theorem payload_bar (d : Unit) : (pairRd (F := F) m).payload (barCell c) 0 d = barPay c := by dsimp only [pairRd]; rw [if_pos rfl]
theorem payload_send (d : Unit) : (pairRd (F := F) m).payload (sendCell c) 0 d = sendPay m c := by
  dsimp only [pairRd]; rw [if_neg send_ne_bar, if_neg send_ne_recv, if_pos rfl]
theorem payload_recv (d : Unit) : (pairRd (F := F) m).payload (recvCell c) 0 d = recvPay m c := by
  dsimp only [pairRd]; rw [if_neg recv_ne_bar, if_pos rfl]

/-- The barrier cell's round, nothing taken yet: the partner's payload. -/
theorem rest_bar : bigSep ((pairRd (F := F) m).duties (barCell c) 0 \ ∅) (fun d => (pairRd (F := F) m).payload (barCell c) 0 d) = barPay c := by
  rw [Finset.sdiff_empty, duties_bar, bigSep_singleton, payload_bar]
theorem rest_send : bigSep ((pairRd (F := F) m).duties (sendCell c) 0 \ ∅) (fun d => (pairRd (F := F) m).payload (sendCell c) 0 d) = sendPay m c := by
  rw [Finset.sdiff_empty, duties_send, bigSep_singleton, payload_send]
theorem rest_recv : bigSep ((pairRd (F := F) m).duties (recvCell c) 0 \ ∅) (fun d => (pairRd (F := F) m).payload (recvCell c) 0 d) = recvPay m c := by
  rw [Finset.sdiff_empty, duties_recv, bigSep_singleton, payload_recv]

end Tables

/-! ## What each device owes at launch; the waiting order -/

/-- Device `c` owes its partner's receive cell one buffer's credit and its partner's barrier cell one unit; the signal
    (made first) pays the last summand. -/
def O₀ (c : Dev nD) : CellTallies nD τ sig Unit := tallyAt (recvCell (nbr c)) () NC + tallyAt (barCell (nbr c)) () 1

def L (g : GSem nD τ sig) : Finset Unit := if g.1.2 = .tc then {()} else ∅
/-- Barrier cells at 1, receive cells at 2, every other cell (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (nbr c) ∨ g = barCell (nbr c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging cell (level 0), owing the launch debts or nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (nbr c)) () NC) :=
  MayOwe.of_cut (L := L) (lev := lv) 1 (fun p hp => by rw [Finset.mem_singleton.mp hp, L_tc]; exact Finset.mem_singleton_self _)
    (fun g u hg => by
      rw [tallyAt_apply] at hg
      by_cases h : g = recvCell (nbr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nbr c) ∧ u = ()
      · rw [h.1]; dsimp only [lv]; rw [if_neg recv_ne_bar, if_pos rfl]; decide
      · rw [if_neg h] at hg; exact absurd hg (Nat.lt_irrefl 0))

end Cert.KernelProof

end
-- ==== Proof.Kernel.Data.lean ====
/-
  What each device holds before and after the kernel's one grid point, for the launch theorem.

  Before the point a device holds, of the exchange: the invariants of the five cells it touches (its own three, its
  partner's barrier and receive cells), its position at the first round of its own three cells, the tokens of the three
  duties IT pays (its partner's barrier unit, its partner's receive credit, its own send credit), the credit dealt to
  it at launch (one unit on its barrier cell, one buffer's credit on its receive cell), and both scratch buffers at
  arbitrary contents. After the point it holds the sending buffer as sent, the landing buffer holding what its partner
  sent, and its own two semaphores back at zero; the result's staging buffer holds the normalised sum.
-/
import proofs.«900393_g7700000000000394_dist_rsrms_v7x_xyz2x2x2_y_m512_d512_bf16_1_alg».proof.Proof.Kernel.Protocol

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The invariants of the cells device `c`'s body opens, at the names `K` the launch allocated them under. -/
def invs (K : Dev nD × Fin 3 → ℕ) (c : Dev nD) : sProp 𝕄 :=
  iprop(cellInv EX (pairRd m) (K (c, 0)) (barCell c) ∗ cellInv EX (pairRd m) (K (c, 1)) (sendCell c) ∗ cellInv EX (pairRd m) (K (c, 2)) (recvCell c)
    ∗ cellInv EX (pairRd m) (K (nbr c, 0)) (barCell (nbr c)) ∗ cellInv EX (pairRd m) (K (nbr c, 2)) (recvCell (nbr c)))

instance invs_persistent (K : Dev nD × Fin 3 → ℕ) (c : Dev nD) : BI.Persistent (invs m K c) := by unfold invs; infer_instance

/-- The exchange's ghost state device `c` starts from. -/
def ghost (K : Dev nD × Fin 3 → ℕ) (c : Dev nD) : sProp 𝕄 :=
  iprop(invs m K c
    ∗ atPos EX (barCell c) 0 ∅ 0 ∗ atPos EX (sendCell c) 0 ∅ 0 ∗ atPos EX (recvCell c) 0 ∅ 0
    ∗ reached EX (barCell (nbr c)) 0 ∗ reached EX (recvCell (nbr c)) 0 ∗ reached EX (sendCell c) 0 ∗ reached EX (recvCell c) 0
    ∗ dutyTok EX (barCell (nbr c)) 0 () ∗ dutyTok EX (recvCell (nbr c)) 0 () ∗ dutyTok EX (sendCell c) 0 ())

/-- What device `c`'s body starts from: the ghost state at some names, its launch credit and the waiting order. -/
def start (c : Dev nD) : sProp 𝕄 :=
  iprop((∃ K, ghost m K c) ∗ cred (tallyAt (barCell c) () 1) ∗ cred (tallyAt (recvCell c) () NC) ∗ levAts L lv)

def Φ₀ (c : Dev nD) : sProp 𝕄 := iprop(start m c ∗ (∃ f, sPts c f) ∗ (∃ f, rPts c f))
def Φ₁ (c : Dev nD) : sProp 𝕄 := iprop(sPts c (sent m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => pblk m c
    | ⟨1, _⟩ => gblk m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The two input windows' staging buffers hold the device's argument arrays when the body runs. -/
theorem before_0 (c : Dev nD) (d) : (dats m 0 c).before (0 : Fin 3) t₀ d = pblk m c :=
  ((dats m 0 c).before_in_eq_fetched 0 rfl (fun _ => rfl) (fun _ _ _ => rfl)
      (fun t => by rw [fin_N0 t]; show pblk m c = _; unfold pblk Dat.blockOf iblk; rfl) t₀ d).trans
    (by unfold Dat.fetched Dat.blockOf pblk iblk; rfl)
theorem before_1 (c : Dev nD) (d) : (dats m 0 c).before (1 : Fin 3) t₀ d = gblk m c :=
  ((dats m 0 c).before_in_eq_fetched 1 rfl (fun _ => rfl) (fun _ _ _ => rfl)
      (fun t => by rw [fin_N0 t]; show gblk m c = _; unfold gblk Dat.blockOf iblk; rfl) t₀ d).trans
    (by unfold Dat.fetched Dat.blockOf gblk iblk; rfl)

end Cert.KernelProof

end
-- ==== Proof.Kernel.Body.lean ====
/-
  One device's body, run once at a symbolic device.

  In program order: the device reads its own id; signals its partner's barrier cell, handing over its landing buffer;
  waits on its own barrier cell and receives its partner's landing buffer; loads the partner's rows of its block, rounds
  them and stores them into the sending buffer; copies the sending buffer into the partner's landing buffer (paying its
  own send duty and its partner's receive duty); waits for its send cell (the sending buffer is back) and for its
  receive cell (its landing buffer now holds what the partner sent); loads its own rows, the landing buffer and the
  scale vector, and stores the normalised, scaled sum into the result's staging buffer. At the end both of its own
  cells have no round left and are closed, which returns their semaphores at zero.
-/
import proofs.«900393_g7700000000000394_dist_rsrms_v7x_xyz2x2x2_y_m512_d512_bf16_1_alg».proof.Proof.Kernel.Data

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

/-! The schedule's tables once more, with every payload spelt down to the buffer it hands over, held whole. -/

omit [FloatOps F] in
theorem sPts_whole (c : Dev nD) (f) : sPts (F := F) c f = ((sM : Memref sig .tc .vmem S512x512 .bf16).view.loc (c : Thread nD τ) ↦{fullShare} f : sProp 𝕄) := by
  unfold sPts; rw [View.set_whole]
omit [FloatOps F] in
theorem rPts_whole (c : Dev nD) (f) : rPts (F := F) c f = ((rM : Memref sig .tc .vmem S512x512 .bf16).view.loc (c : Thread nD τ) ↦{fullShare} f : sProp 𝕄) := by
  unfold rPts; rw [View.set_whole]

/-- A device's own barrier cell: its partner's landing buffer, and that the partner's receive cell is open. -/
theorem pay_bar (c : Dev nD) (d : Unit) : (pairRd (F := F) m).payload (barCell c) 0 d
    = iprop((∃ f, ((rM : Memref sig (nbr c : Thread nD τ).2.kind .vmem S512x512 .bf16).view.loc (nbr c : Thread nD τ) ↦{fullShare} f))
        ∗ reached EX (recvCell (nbr c)) 0) := by
  rw [payload_bar]; unfold barPay; simp only [rPts_whole]
theorem pay_send (c : Dev nD) (d : Unit) : (pairRd (F := F) m).payload (sendCell c) 0 d
    = ((sM : Memref sig .tc .vmem S512x512 .bf16).view.loc (c : Thread nD τ) ↦{fullShare} sent m c : sProp 𝕄) := by
  rw [payload_send]; unfold sendPay; rw [sPts_whole]
theorem pay_recv (c : Dev nD) (d : Unit) : (pairRd (F := F) m).payload (recvCell c) 0 d
    = ((rM : Memref sig .tc .vmem S512x512 .bf16).view.loc (c : Thread nD τ) ↦{fullShare} landed m c : sProp 𝕄) := by
  rw [payload_recv]; unfold recvPay; rw [rPts_whole]
/-- At the PARTNER's barrier cell the payload is the signalling device's own landing buffer: the partner's partner is the device itself. -/
theorem pay_bar_nbr (c : Dev nD) (d : Unit) : (pairRd (F := F) m).payload (barCell (nbr c)) 0 d
    = iprop((∃ f, ((rM : Memref sig .tc .vmem S512x512 .bf16).view.loc (c : Thread nD τ) ↦{fullShare} f))
        ∗ reached EX (recvCell c) 0) := by
  rw [pay_bar, nbr_nbr]
/-- At the PARTNER's receive cell the payload is the partner's landing buffer holding what the device itself sent. -/
theorem pay_recv_nbr (c : Dev nD) (d : Unit) : (pairRd (F := F) m).payload (recvCell (nbr c)) 0 d
    = ((rM : Memref sig .tc .vmem S512x512 .bf16).view.loc (nbr c : Thread nD τ) ↦{fullShare} sent m c : sProp 𝕄) := by
  rw [pay_recv]; unfold landed; rw [nbr_nbr]

omit [FloatOps F] in
theorem zeros2 : (![0, 0] : Fin 2 → Nat) = fun _ => 0 := funext fun a => by fin_cases a <;> rfl
omit [FloatOps F] in
theorem zeros1 : (![0] : Fin 1 → Nat) = fun _ => 0 := funext fun a => by fin_cases a; rfl

omit [FloatOps F] in
/-- A whole 512 × 512 buffer overwritten once, everywhere, holds what was stored. -/
theorem store_sM (fs w : (cc0_scratch0 : Ref sig .tc).ty.Contents (Elt F)) :
    (sM : Memref sig .tc .vmem S512x512 .bf16).view.writes (Elt F) fs [⟨r0, w⟩] = w := by
  rw [View.writes_singleton]
  exact Memref.write_access_unit_zero_univ (Elt F) cc0_scratch0 zeros2 _ fs w
omit [FloatOps F] in
theorem store_oM (fo w : (cc0_stg2_0 : Ref sig .tc).ty.Contents (Elt F)) :
    (oM : Memref sig .tc .vmem S512x512 .f32).view.writes (Elt F) fo [⟨r0, w⟩] = w := by
  rw [View.writes_singleton]
  exact Memref.write_access_unit_zero_univ (Elt F) cc0_stg2_0 zeros2 _ fo w
omit [FloatOps F] in
/-- A load of a whole buffer reads the buffer. -/
theorem load_rM (f : (cc0_scratch1 : Ref sig .tc).ty.Contents (Elt F)) :
    (rM : Memref sig .tc .vmem S512x512 .bf16).view.readAt (Elt F) r0.toLoadRect f = f :=
  Memref.readAt_unit_zero (Elt F) cc0_scratch1 zeros2 _ f
omit [FloatOps F] in
theorem load_gM (f : (cc0_stg1_0 : Ref sig .tc).ty.Contents (Elt F)) :
    (gM : Memref sig .tc .vmem S512 .f32).view.readAt (Elt F) rg.toLoadRect f = f :=
  Memref.readAt_unit_zero (Elt F) cc0_stg1_0 zeros1 _ f

attribute [local sl_rounds high] pay_bar_nbr pay_recv_nbr
attribute [local sl_rounds] duties_bar duties_send duties_recv amount_bar amount_send amount_recv expect_bar expect_send expect_recv
  pay_bar pay_send pay_recv nbr_nbr

/-- The copy into the partner's landing buffer, for any device `n` that IS the partner (the printed program names it by an
    arithmetic chain over the device's own id): it pays the device's own send duty with the sending buffer and the
    partner's receive duty with the landing buffer overwritten by what was sent, and takes the receive credit off what the
    device owes. -/
theorem wp_send_pair (c n : Dev nD) (hn : n = nbr c)
    {hsc : (rM : Memref sig (Dev.tc n : Thread nD τ).2.kind .vmem S512x512 .bf16).view.ref.isScScratch = false}
    {hsrc : (sM : Memref sig .tc .vmem S512x512 .bf16).view.WordExact} {hdst : (rM : Memref sig .tc .vmem S512x512 .bf16).view.WordExact}
    {hsem : DmaTarget.Typed .vmem (.dma recvS.sem) (.remote (Dev.tc n : Thread nD τ) (rM : Memref sig .tc .vmem S512x512 .bf16) (.dma sendS.sem) hsc)}
    {α : Type} {Q : α → sProp 𝕄} {k : PUnit → Prog (TpuEff nD τ sig (Elt F) Λ₀ .tc) α}
    (fn : Buf (Elt F) ((rM : Memref sig .tc .vmem S512x512 .bf16).view.loc (nbr c : Thread nD τ))) (W : Waits sig Unit) :
    iprop(cellInv EX (pairRd m) (K (c, 1)) (sendCell c) ∗ cellInv EX (pairRd m) (K (nbr c, 2)) (recvCell (nbr c))
        ∗ sPts c (sent m c) ∗ rPts (nbr c) fn
        ∗ owes (c : Thread nD τ) (tallyAt (recvCell (nbr c)) () NC) W
        ∗ dutyTok EX (sendCell c) 0 () ∗ reached EX (sendCell c) 0
        ∗ dutyTok EX (recvCell (nbr c)) 0 () ∗ reached EX (recvCell (nbr c)) 0)
      ⊢ iprop(((cred (tallyAt (sendCell c) () NC) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  unfold sPts rPts
  exact Rounds.wp_send_pointsTo 𝒱₀ EX (pairRd m) (c : Thread nD τ) none (κ₁ := K (c, 1)) (κ₂ := K (nbr c, 2))
    (r₁ := 0) (r₂ := 0) (d₁ := ()) (d₂ := ()) (fd := fn)
    (by rw [duties_send]; exact Finset.mem_singleton_self _) (by rw [duties_recv]; exact Finset.mem_singleton_self _)
    () () NC rfl (amount_send m c ()) (amount_recv m (nbr c) ()) 0 (by rw [zero_add]) (W := W)
    (by rw [payload_send]; exact BI.Entails.refl _)
    (by rw [payload_recv]; unfold recvPay rPts; rw [landed_eq]; unfold landed; rw [nbr_nbr])

/-- What the body leaves: the sending buffer as sent, the landing buffer holding what the partner sent, the device's own two
    semaphores at zero, nothing owed, the inputs' staging buffers as found and the result's holding the normalised sum. -/
def bodyOut (c : Dev nD) : sProp 𝕄 :=
  iprop(((sM : Memref sig .tc .vmem S512x512 .bf16).view.loc (c : Thread nD τ) ↦{fullShare} sent m c)
    ∗ ((rM : Memref sig .tc .vmem S512x512 .bf16).view.loc (c : Thread nD τ) ↦{fullShare} landed m c)
    ∗ semVal (sendCell c) 0 ∗ semVal (recvCell c) 0
    ∗ (∃ W', owes (c : Thread nD τ) 0 W')
    ∗ ((pM : Memref sig .tc .vmem S1x1024x512 .f32).view.loc (c : Thread nD τ) ↦{fullShare} pblk m c)
    ∗ ((gM : Memref sig .tc .vmem S512 .f32).view.loc (c : Thread nD τ) ↦{fullShare} gblk m c)
    ∗ ((oM : Memref sig .tc .vmem S512x512 .f32).view.loc (c : Thread nD τ) ↦{fullShare} outAt m c))

theorem sound_body (c : Dev nD) (W : Waits sig Unit)
    (fs : Buf (Elt F) ((sM : Memref sig .tc .vmem S512x512 .bf16).view.loc (c : Thread nD τ)))
    (fr : Buf (Elt F) ((rM : Memref sig .tc .vmem S512x512 .bf16).view.loc (c : Thread nD τ)))
    (fo : Buf (Elt F) ((oM : Memref sig .tc .vmem S512x512 .f32).view.loc (c : Thread nD τ))) :
    iprop(invs m K c
        ∗ atPos EX (barCell c) 0 ∅ 0 ∗ atPos EX (sendCell c) 0 ∅ 0 ∗ atPos EX (recvCell c) 0 ∅ 0
        ∗ reached EX (barCell (nbr c)) 0 ∗ reached EX (recvCell (nbr c)) 0 ∗ reached EX (sendCell c) 0 ∗ reached EX (recvCell c) 0
        ∗ dutyTok EX (barCell (nbr c)) 0 () ∗ dutyTok EX (recvCell (nbr c)) 0 () ∗ dutyTok EX (sendCell c) 0 ()
        ∗ cred (tallyAt (barCell c) () 1) ∗ cred (tallyAt (recvCell c) () NC) ∗ levAts L lv
        ∗ ((sM : Memref sig .tc .vmem S512x512 .bf16).view.loc (c : Thread nD τ) ↦{fullShare} fs)
        ∗ ((rM : Memref sig .tc .vmem S512x512 .bf16).view.loc (c : Thread nD τ) ↦{fullShare} fr)
        ∗ owes (c : Thread nD τ) (tallyAt (recvCell (nbr c)) () NC + tallyAt (barCell (nbr c)) () 1) W
        ∗ ((pM : Memref sig .tc .vmem S1x1024x512 .f32).view.loc (c : Thread nD τ) ↦{fullShare} pblk m c)
        ∗ ((gM : Memref sig .tc .vmem S512 .f32).view.loc (c : Thread nD τ) ↦{fullShare} gblk m c)
        ∗ ((oM : Memref sig .tc .vmem S512x512 .f32).view.loc (c : Thread nD τ) ↦{fullShare} fo))
      ⊢ wp frame (wpE (defs₀ (F := F)) 𝒱₀ c none) Set.univ
          (cc0_body pM (Memref.isWhole_whole _) gM (Memref.isWhole_whole _) oM (Memref.isWhole_whole _)
            sM (Memref.isWhole_whole _) rM (Memref.isWhole_whole _) cc0_scratch2 cc0_scratch3)
          (fun _ => bodyOut m c) := by
  -- the waiting order at the barrier wait, and that both printed device chains name the partner
  have hmw := mayWait_bar (F := F) c
  have hd1 := dev1_eq c
  have hd2 := dev2_eq c
  unfold invs
  iintro ⟨⟨#HIb, #HIs, #HIr, #HIbn, #HIrn⟩, Hab, Has, Har, #Hrbn, #Hrrn, #Hrs, #Hrr, Htbn, Htrn, Hts, Hcb, Hcr, #Hlev, Hs, Hr, HO, Hp, Hg, Ho⟩
  -- the id, the signal, the barrier wait, the load of the partner's rows and the store into the sending buffer
  set_option sl_exec.maxSteps 14 in sl_exec
  -- the sending buffer, overwritten once everywhere, holds what was stored
  rw [store_sM]
  simp (config := { proj := false }) only [Prog.lift, Prog.bind_op, Prog.bind_ret, Prog.pure_eq_ret]
  irevert Hs
  irevert Hab_pay1
  iintro Hland Hsend
  -- the copy into the partner's landing buffer
  iapply (wp_send_pair m K c ⟨k0_dev2 c, k0_dev2_lt c⟩ (dev2_eq c) Hab_pay1_v _) $$ [Hsend Hland HO Hts Htrn]
  · isplitr; · iexact HIs
    isplitr; · iexact HIrn
    isplitl [Hsend]; · rw [sPts_whole]; iexact Hsend
    isplitl [Hland]; · rw [rPts_whole]; iexact Hland
    isplitl [HO]; · iexact HO
    isplitl [Hts]; · iexact Hts
    isplitr; · iexact Hrs
    isplitl [Htrn]; · iexact Htrn
    iexact Hrrn
  iintro ⟨Hcs, HO⟩
  -- the two waits, the three loads and the store of the result
  sl_exec
  -- the result's staging buffer, overwritten once everywhere, holds the stored value; the whole-buffer loads read the buffers
  rw [store_oM, load_rM, load_gM]
  -- both own cells have no round left: closed, their semaphores come back at zero
  imod (Rounds.cell_close EX (pairRd m) (g := sendCell c) (κ := K (c, 1)) (Set.mem_univ _) (fun h => h) (R := 1)
    (fun r hr => duties_later m (sendCell c) r hr)) $$ [Has] with Hzs
  · isplitr; · iexact HIs
    iexact Has
  imod (Rounds.cell_close EX (pairRd m) (g := recvCell c) (κ := K (c, 2)) (Set.mem_univ _) (fun h => h) (R := 1)
    (fun r hr => duties_later m (recvCell c) r hr)) $$ [Har] with Hzr
  · isplitr; · iexact HIr
    iexact Har
  sl_step
  unfold bodyOut
  isplitl [Has_pay1]; · iexact Has_pay1
  isplitl [Har_pay1]; · iexact Har_pay1
  isplitl [Hzs]; · iexact Hzs
  isplitl [Hzr]; · iexact Hzr
  isplitl [HO]; · iexists _; iexact HO
  isplitl [Hp]; · iexact Hp
  isplitl [Hg]; · iexact Hg
  iexact Ho

/-! ## The body obligation, in the launch theorem's form -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ m c ∗ (dats m 0 c).owesAt () t₀.succ ∗ stg c cc0_stg0_0 (pblk m c) ∗ stg c cc0_stg1_0 (gblk m c) ∗ stg c cc0_stg2_0 (outAt m c))

theorem bodyOut_post (c : Dev nD) : bodyOut m c ⊢ bodyPost m c := by
  unfold bodyOut bodyPost Φ₁
  iintro ⟨Hs, Hr, Hzs, Hzr, ⟨%W', HO⟩, Hp, Hg, Ho⟩
  isplitl [Hs Hr Hzs Hzr]
  · isplitl [Hs]; · rw [sPts_whole]; iexact Hs
    isplitl [Hr]; · rw [rPts_whole]; iexact Hr
    isplitl [Hzs] <;> iassumption
  isplitl [HO]
  · unfold Dat.owesAt Pipeline.owesWithin
    iexists W'
    isplitr; · ipureintro; exact fun x _ => Or.inl (Set.mem_univ x)
    iexact HO
  isplitl [Hp]; · iexists _; isplitr; · ipureintro; rfl
                  iexact Hp
  isplitl [Hg]; · iexists _; isplitr; · ipureintro; rfl
                  iexact Hg
  iexists _; isplitr; · ipureintro; rfl
  iexact Ho

/-- The body from the launch theorem's pre: the windows' staging buffers opened, the ghost state unpacked. -/
theorem body_run (c : Dev nD) : bodyPre m c ⊢ wp frame (wpE (defs₀ (F := F)) 𝒱₀ c none) Set.univ
    (cc0_body pM (Memref.isWhole_whole _) gM (Memref.isWhole_whole _) oM (Memref.isWhole_whole _)
      sM (Memref.isWhole_whole _) rM (Memref.isWhole_whole _) cc0_scratch2 cc0_scratch3) (fun _ => bodyOut m c) := by
  unfold bodyPre Φ₀ start ghost Dat.owesAt Pipeline.owesWithin
  simp (config := { proj := false }) only [before_0, before_1, sPts_whole, rPts_whole]
  iintro ⟨⟨⟨⟨%K, HI, Hab, Has, Har, Hrbn, Hrrn, Hrs, Hrr, Htbn, Htrn, Hts⟩, Hcb, Hcr, Hlev⟩, ⟨%fs, Hs⟩, ⟨%fr, Hr⟩⟩, ⟨%W, %hW, HO⟩, ⟨%d0, %f0, %h0, Hp⟩, ⟨%d1, %f1, %h1, Hg⟩, ⟨%d2, %fo, %h2, Ho⟩⟩
  subst h0
  subst h1
  iapply (sound_body m K c W fs fr fo)
  isplitl [HI]; · iexact HI
  isplitl [Hab]; · iexact Hab
  isplitl [Has]; · iexact Has
  isplitl [Har]; · iexact Har
  isplitl [Hrbn]; · iexact Hrbn
  isplitl [Hrrn]; · iexact Hrrn
  isplitl [Hrs]; · iexact Hrs
  isplitl [Hrr]; · iexact Hrr
  isplitl [Htbn]; · iexact Htbn
  isplitl [Htrn]; · iexact Htrn
  isplitl [Hts]; · iexact Hts
  isplitl [Hcb]; · iexact Hcb
  isplitl [Hcr]; · iexact Hcr
  isplitl [Hlev]; · iexact Hlev
  isplitl [Hs]; · iexact Hs
  isplitl [Hr]; · iexact Hr
  isplitl [HO]; · iexact HO
  isplitl [Hp]; · iexact Hp
  isplitl [Hg]; · iexact Hg
  iexact Ho

/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact (body_run m c).trans (wp_mono frame (wpE (defs₀ (F := F)) 𝒱₀ c none) Set.univ (fun _ => bodyOut_post m c))

end Body

end Cert.KernelProof

end
-- ==== Proof.Kernel.Launch.lean ====
/-
  The launch: from "every device's body is proved" to the run of the whole program.

  The launch element funds, beside the pipeline's own staging cells, the three cells of every device (barrier, send,
  receive), each at its first round, with one duty token per cell. One global step allocates all twenty-four cell
  invariants at once (a device's body opens two of its partner's), and deals each device the tokens of the duties IT
  pays: its partner's barrier unit, its partner's receive credit, its own send credit. What a device is owed at launch
  is what its partner owes: one barrier unit and one buffer's credit.
-/
import proofs.«900393_g7700000000000394_dist_rsrms_v7x_xyz2x2x2_y_m512_d512_bf16_1_alg».proof.Proof.Kernel.Data

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, the tokens and the launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- One duty token per cell: the cell's only round, its only duty. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own cells. -/
def toks (c : Dev nD) : sProp 𝕄 :=
  iprop(dutyTok EX (barCell c) 0 () ∗ dutyTok EX (sendCell c) 0 () ∗ dutyTok EX (recvCell c) 0 ())

/-- What the launch element deals device `c`. -/
def G (c : Dev nD) : sProp 𝕄 :=
  iprop((bigSep Finset.univ fun k : Fin 3 => roundState EX (pairRd m) (kcell (c, k)) 0)
    ∗ (bigSep Finset.univ fun k : Fin 3 => iprop(atPos EX (kcell (c, k)) 0 ∅ 0 ∗ reached EX (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (EX (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok EX x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund EX (pairRd m) pairCells pairToks) $$ HX with ⟨Hst, Hr, Hat, Htok⟩
  imodintro
  ihave Hst' := (Entails.of_eq (hX fun g => roundState EX (pairRd m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (pairRd m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState EX (pairRd m) (kcell (c, k)) 0)
      ⊢ (|={Set.univ}=> bigSep Finset.univ fun k => iprop(∃ κ : ℕ, cellInv EX (pairRd m) κ (kcell (c, k))) : sProp 𝕄) from by
        rw [← bigSep_sep']
        exact (bigSep_mono fun k _ => (Rounds.body_intro EX (pairRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and that every cell's first round is open: what all devices share. -/
def records (K : Dev nD × Fin 3 → ℕ) : sProp 𝕄 :=
  iprop((bigSep Finset.univ fun ck : Dev nD × Fin 3 => cellInv EX (pairRd m) (K ck) (kcell ck))
    ∗ bigSep Finset.univ fun ck : Dev nD × Fin 3 => reached EX (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv EX (pairRd m) (K ck) (kcell ck) : sProp 𝕄)) ⊢ cellInv EX (pairRd m) (K ck) (kcell ck) :=
  bigSep_elim (Finset.mem_univ ck)
omit [FloatOps F] in
theorem reached_at (ck : Dev nD × Fin 3) :
    (bigSep Finset.univ fun ck : Dev nD × Fin 3 => (reached EX (kcell ck) 0 : sProp 𝕄)) ⊢ reached EX (kcell ck) 0 :=
  bigSep_elim (Finset.mem_univ ck)

/-- What stays with device `c`: its positions, and the tokens of the duties IT pays. -/
def payToks (c : Dev nD) : sProp 𝕄 :=
  iprop(dutyTok EX (barCell (nbr c)) 0 () ∗ dutyTok EX (recvCell (nbr c)) 0 () ∗ dutyTok EX (sendCell c) 0 ())
def linear (c : Dev nD) : sProp 𝕄 :=
  iprop((atPos EX (barCell c) 0 ∅ 0 ∗ atPos EX (sendCell c) 0 ∅ 0 ∗ atPos EX (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (nbr c, 0)); iexact HI
    iapply (inv_at m K (nbr c, 2)); iexact HI
  isplitl [HaB]; · iexact HaB
  isplitl [HaS]; · iexact HaS
  isplitl [HaV]; · iexact HaV
  isplitr; · iapply (reached_at (F := F) (nbr c, 0)); iexact HR
  isplitr; · iapply (reached_at (F := F) (nbr c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt across each pair: a device's barrier and receive tokens go to its partner, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok EX (barCell c) 0 () : sProp 𝕄)),
    bigSep_univ_equiv pairing (fun c : Dev nD => (dutyTok EX (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (pairRd m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv EX (pairRd m) κ (kcell ck))),
    bigSep_congr (s := Finset.univ) (fun (c : Dev nD) _ => bigSep_sep' Finset.univ (fun k : Fin 3 => (atPos EX (kcell (c, k)) 0 ∅ 0 : sProp 𝕄)) (fun k => reached EX (kcell (c, k)) 0)),
    bigSep_sep', ← bigSep_univ_prod (fun ck : Dev nD × Fin 3 => (reached EX (kcell ck) 0 : sProp 𝕄))]
  iintro ⟨HI, ⟨Hat, #HR⟩, Htok⟩
  ihave HK := (BI.bigSep_exists_pi Finset.univ (fun (ck : Dev nD × Fin 3) (κ : ℕ) => (cellInv EX (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos EX (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: one unit if `d` is `c`'s partner. -/
theorem owed_bar (d c : Dev nD) : O₀ d (barCell c) () = if d = nbr c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = nbr c
  · subst h; rw [nbr_nbr, if_pos ⟨rfl, rfl⟩, if_pos rfl]
  · rw [if_neg (fun ⟨h1, _⟩ => h (by rw [← nbr_nbr d]; exact congrArg nbr (bar_eq_iff.mp h1).symm)), if_neg h]

omit [FloatOps F] in
/-- What device `d` owes device `c`'s receive cell: one buffer's credit if `d` is `c`'s partner. -/
theorem owed_recv (d c : Dev nD) : O₀ d (recvCell c) () = if d = nbr c then NC else 0 := by
  unfold O₀
  rw [Pi.add_apply, Finsupp.add_apply, tallyAt_apply,
    tallyAt_ne_cell (fun h => recv_ne_bar (congrArg Prod.snd h)), Finsupp.zero_apply, Nat.add_zero]
  by_cases h : d = nbr c
  · subst h; rw [nbr_nbr, if_pos ⟨rfl, rfl⟩, if_pos rfl]
  · rw [if_neg (fun ⟨h1, _⟩ => h (by rw [← nbr_nbr d]; exact congrArg nbr (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nbr c) fun _ => 1, if_pos (Finset.mem_univ _)]

omit [FloatOps F] in
theorem launch_recv (c : Dev nD) :
    tallyOn (recvCell c) (launchCredit (Pipeline.owing O₀) 0 (recvCell c)) = (tallyAt (recvCell c) () NC : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (nbr c) fun _ => NC, if_pos (Finset.mem_univ _)]

omit [FloatOps F] in
theorem creds (c : Dev nD) :
    (Pipeline.launchCred O₀ c : sProp 𝕄) ⊢ iprop(cred (tallyAt (barCell c) () 1) ∗ cred (tallyAt (recvCell c) () NC)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  isplitl [Hs]; · iexact Hs
  isplitl [Hf]
  · iexists f; rw [sPts_eq]; iexact Hf
  · iexists g; rw [rPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hs, Hr, HzS, HzV⟩
  isplitr; · iempintro
  isplitl [HzS HzV]
  · isplitl [HzS] <;> iassumption
  isplitl [Hs]
  · iexists (sent m c); rw [← sPts_eq]; iexact Hs
  · iexists (landed m c); rw [← rPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: if every device's
    body meets its obligation, every weakly fair execution of @main — each pair of devices handshaking on the runtime's
    barrier semaphore, then exchanging halves of their blocks — terminates, and every final state has each window's
    array on each device at the contents the proof data computes. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The final arrays -/

/-- The block of the summands and the scale vector end as launched. -/
theorem finalA_0 (c : Dev nD) : finalA m c (0 : Fin 3) = m ((c : Thread nD τ).loc main_arg0) :=
  (dats (F := F) m 0 c).arrAt_in (0 : Fin 3) rfl _
theorem finalA_1 (c : Dev nD) : finalA m c (1 : Fin 3) = m ((c : Thread nD τ).loc main_arg1) :=
  (dats (F := F) m 0 c).arrAt_in (1 : Fin 3) rfl _

/-- The result array ends holding the normalised sum: the one write-back writes the whole staged result over it. -/
theorem finalA_2 (c : Dev nD) : finalA m c (2 : Fin 3) = outAt m c := by
  have h := (dats (F := F) m 0 c).arrAt_succ (2 : Fin 3) t₀
  rw [flush0_2 t₀, if_pos rfl] at h
  refine (show finalA m c 2 = (dats m 0 c).arrAt 2 (t₀.val + 1) from rfl).trans (h.trans ?_)
  exact Memref.write_access_unit_zero_univ (Elt F) main_v1 (funext fun a => Nat.zero_mul _) _ _ _

/-! ### The run, in the shape the claims read -/

/-- The run with the strongest post: on every device the result array holds the normalised sum of the device's own
    rows and what its partner sent, as a pure term of the launch memory, and both argument arrays are unchanged. -/
theorem run_claim (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (finalA_2 m c), (h c 0).trans (finalA_0 m c), (h c 1).trans (finalA_1 m c)⟩)
    (run_main m ρ hbody)

/-- info: 'Cert.KernelProof.run_claim' depends on axioms: [propext, Classical.choice, Quot.sound] -/
#guard_msgs in #print axioms run_claim

end Cert.KernelProof

end
-- ==== Proof.KernelIdeal.Protocol.lean ====
/-
  The exchange protocol of the eight devices, as data for the rounds discipline.

  The mesh is 2 × 2 × 2 and a device's linear id is 4x + 2y + z. Every device works with ONE partner, the device
  with the same x and z and the other y (the id with its second bit flipped): the map is an involution, so the eight
  devices fall into four independent pairs. Within a pair each device
    1. signals its partner's barrier semaphore one unit and waits for one unit on its own — after the wait it knows
       its partner is inside the kernel, and it has been handed the partner's landing buffer;
    2. copies its sending buffer (the half of its block of the summands that the partner is responsible for) into the
       partner's landing buffer, crediting its own send semaphore and the partner's receive semaphore;
    3. waits for its send semaphore (the sending buffer is its own again) and for its receive semaphore (its landing
       buffer now holds the partner's sending buffer).
  So each device has three cells — barrier, send, receive —, each with one round of one duty:
    barrier  one unit, paid by the partner's signal, handing over the partner's landing buffer;
    send     the buffer's credit, paid by the device's own copy, handing back the sending buffer as sent;
    receive  the buffer's credit, paid by the partner's copy, handing over the landing buffer as written.
  At launch a device owes its partner one barrier unit and one receive credit. It waits on its barrier cell while it
  still owes the receive credit, so barrier cells sit below receive cells in the waiting order; every other wait is
  made owing nothing.
-/
import proofs.«900393_g7700000000000394_dist_rsrms_v7x_xyz2x2x2_y_m512_d512_bf16_1_alg».proof.Proof.Gen.KernelIdeal
import proofs.«900393_g7700000000000394_dist_rsrms_v7x_xyz2x2x2_y_m512_d512_bf16_1_alg».proof.Proof.Gen.KernelIdeal.Skeleton
import proofs.«900393_g7700000000000394_dist_rsrms_v7x_xyz2x2x2_y_m512_d512_bf16_1_alg».proof.Proof.Gen.KernelIdeal.Launch
import proofs.«900393_g7700000000000394_dist_rsrms_v7x_xyz2x2x2_y_m512_d512_bf16_1_alg».proof.Proof.Gen.KernelIdeal.Points
import proofs.«900393_g7700000000000394_dist_rsrms_v7x_xyz2x2x2_y_m512_d512_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's own, and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner: the device with the other y -/

/-- The id 4x + 2y + z with y replaced by 1 − y. -/
def nbr (c : Dev nD) : Dev nD :=
  ⟨(4 * (c.val / 4) + (c.val % 2) + 2) - 2 * ((c.val / 2) % 2), by have h : c.val < 8 := c.isLt; show _ < 8; omega⟩

theorem nbr_nbr (c : Dev nD) : nbr (nbr c) = c := by revert c; decide
theorem nbr_ne (c : Dev nD) : nbr c ≠ c := by revert c; decide

/-- Both printed device-id chains (the signal's and the copy's) name the partner. -/
theorem dev1_eq (c : Dev nD) : (⟨k0_dev1 c, k0_dev1_lt c⟩ : Dev nD) = nbr c := Fin.ext (k0_dev1_eq c)
theorem dev2_eq (c : Dev nD) : (⟨k0_dev2 c, k0_dev2_lt c⟩ : Dev nD) = nbr c := Fin.ext (k0_dev2_eq c)

def pairing : Dev nD ≃ Dev nD := ⟨nbr, nbr, nbr_nbr, nbr_nbr⟩

/-! ## The buffers and the cells -/

/-- The staged block of the summands, the staged scale vector, the staged result; the sending and the landing buffer. -/
abbrev pM : Memref sig .tc .vmem S1x1024x512 .f32 := Memref.whole cc0_stg0_0
abbrev gM : Memref sig .tc .vmem S512 .f32 := Memref.whole cc0_stg1_0
abbrev oM : Memref sig .tc .vmem S512x512 .f32 := Memref.whole cc0_stg2_0
abbrev sM : Memref sig .tc .vmem S512x512 .bf16 := Memref.whole cc0_scratch0
abbrev rM : Memref sig .tc .vmem S512x512 .bf16 := Memref.whole cc0_scratch1

/-- The runtime's barrier semaphore (not scoped to the launch); the send and receive semaphores (scoped scratch). -/
abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one whole 512 × 512 bf16 buffer. -/
abbrev NC : ℕ := (rM : Memref sig .tc .vmem S512x512 .bf16).view.dmaCredit
theorem NC_pos : 0 < NC := View.dmaCredit_pos _ (by decide)

/-! ## Contents -/

abbrev t₀ : Fin cfg0.N := t0_0

/-- The rectangles the body reads its block of the summands through: the rows its partner is responsible for, and its own. -/
abbrev rOther (c : Dev nD) : Rect S1x1024x512 := Rect.unit (s := S1x1024x512) (k0_off1 c) S1x512x512.size (k0_off1_inb c)
abbrev rOwn (c : Dev nD) : Rect S1x1024x512 := Rect.unit (s := S1x1024x512) (k0_off2 c) S1x512x512.size (k0_off2_inb c)
abbrev r0 : Rect S512x512 := Rect.unit (s := S512x512) ![0, 0] S512x512.size inb_S512x512_S512x512_0_0
abbrev rg : Rect S512 := Rect.unit (s := S512) ![0] S512.size inb_S512_S512_0

/-- Device `c`'s staged block of the summands and staged scale vector: its argument arrays as launched. -/
def pblk (c : Dev nD) : (cc0_stg0_0 : Ref sig .tc).ty.Contents (Elt F) := iblk m c 0 t₀
def gblk (c : Dev nD) : (cc0_stg1_0 : Ref sig .tc).ty.Contents (Elt F) := iblk m c 1 t₀

/-- What device `c` sends: the partner's rows of its block, rounded to the narrow format. -/
def sent (c : Dev nD) : (cc0_scratch0 : Ref sig .tc).ty.Contents (Elt F) :=
  k0_pay2 ((pM : Memref sig .tc .vmem S1x1024x512 .f32).view.readAt (Elt F) (rOther c).toLoadRect (pblk m c))

/-- What lands on device `c`: what its partner sent. -/
def landed (c : Dev nD) : Buf (Elt F) ((rM : Memref sig .tc .vmem S512x512 .bf16).view.loc (c : Thread nD τ)) := sent m (nbr c)

/-- Device `c`'s result: its own rows plus what landed, normalised and scaled. -/
def outAt (c : Dev nD) : (cc0_stg2_0 : Ref sig .tc).ty.Contents (Elt F) :=
  k0_pay1 ((pM : Memref sig .tc .vmem S1x1024x512 .f32).view.readAt (Elt F) (rOwn c).toLoadRect (pblk m c)) (landed m c) (gblk m c)

def sPts (c : Dev nD) (f : Buf (Elt F) ((sM : Memref sig .tc .vmem S512x512 .bf16).view.loc (c : Thread nD τ))) : sProp 𝕄 :=
  (sM : Memref sig .tc .vmem S512x512 .bf16).view.loc (c : Thread nD τ) ↦[(sM : Memref sig .tc .vmem S512x512 .bf16).view.set]{fullShare} f
def rPts (c : Dev nD) (f : Buf (Elt F) ((rM : Memref sig .tc .vmem S512x512 .bf16).view.loc (c : Thread nD τ))) : sProp 𝕄 :=
  (rM : Memref sig .tc .vmem S512x512 .bf16).view.loc (c : Thread nD τ) ↦[(rM : Memref sig .tc .vmem S512x512 .bf16).view.set]{fullShare} f

omit [FloatOps F] in
instance sPts_storable (c : Dev nD) (f) : BI.Storable (upEmb : UEmb _ 𝕄) (sPts (F := F) c f) := by unfold sPts; infer_instance
omit [FloatOps F] in
instance rPts_storable (c : Dev nD) (f) : BI.Storable (upEmb : UEmb _ 𝕄) (rPts (F := F) c f) := by unfold rPts; infer_instance

omit [FloatOps F] in
theorem sPts_eq (c : Dev nD) (f : Buf (Elt F) ((c : Thread nD τ).loc cc0_scratch0)) :
    sPts c f = (((c : Thread nD τ).loc cc0_scratch0) ↦{fullShare} f : sProp 𝕄) := by unfold sPts; rw [View.set_whole]
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [View.set_whole]

/-- A whole buffer overwritten by a whole buffer holds the source's contents. -/
theorem landed_eq (c : Dev nD) (fd : Buf (Elt F) ((rM : Memref sig .tc .vmem S512x512 .bf16).view.loc (c : Thread nD τ)))
    (fs : (cc0_scratch0 : Ref sig .tc).ty.Contents (Elt F)) :
    (rM : Memref sig .tc .vmem S512x512 .bf16).view.write (Elt F) fd ((sM : Memref sig .tc .vmem S512x512 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule: one round, one duty per cell -/

/-- What the partner's signal hands device `c`: the partner's landing buffer, and that the partner's receive cell is open. -/
def barPay (c : Dev nD) : sProp 𝕄 := iprop((∃ f, rPts (nbr c) f) ∗ reached EX (recvCell (nbr c)) 0)
def recvPay (c : Dev nD) : sProp 𝕄 := rPts c (landed m c)
def sendPay (c : Dev nD) : sProp 𝕄 := sPts c (sent m c)

abbrev IsOurs (g : GSem nD τ sig) : Prop := g.1.2 = .tc ∧ (g.2 = .reg barS ∨ g.2 = .dma sendS.sem ∨ g.2 = .dma recvS.sem)

def pairRd : Rounds.Schedule (GSem nD τ sig) Unit 𝕄 where
  duties g r := if r = 0 ∧ IsOurs g then {()} else ∅
  unitless _ := False
  amount g _ _ := if g.2 = .reg barS then 1 else NC
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact NC_pos

instance pairRd_payload_storable (g : GSem nD τ sig) (r : ℕ) (d : Unit) :
    BI.Storable (upEmb : UEmb _ 𝕄) ((pairRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Tables
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (pairRd (F := F) m).duties (barCell c) 0 = {()} := by dsimp only [pairRd]; exact if_pos ⟨rfl, rfl, .inl rfl⟩
theorem duties_send : (pairRd (F := F) m).duties (sendCell c) 0 = {()} := by dsimp only [pairRd]; exact if_pos ⟨rfl, rfl, .inr (.inl rfl)⟩
theorem duties_recv : (pairRd (F := F) m).duties (recvCell c) 0 = {()} := by dsimp only [pairRd]; exact if_pos ⟨rfl, rfl, .inr (.inr rfl)⟩
theorem duties_later (g : GSem nD τ sig) : ∀ r, 1 ≤ r → (pairRd (F := F) m).duties g r = ∅ :=
  fun r hr => by dsimp only [pairRd]; rw [if_neg fun h => by omega]

theorem amount_bar (d : Unit) : (pairRd (F := F) m).amount (barCell c) 0 d = 1 := by dsimp only [pairRd]; exact if_pos rfl
theorem amount_send (d : Unit) : (pairRd (F := F) m).amount (sendCell c) 0 d = NC := by dsimp only [pairRd]; exact if_neg send_ne_bar
theorem amount_recv (d : Unit) : (pairRd (F := F) m).amount (recvCell c) 0 d = NC := by dsimp only [pairRd]; exact if_neg recv_ne_bar

theorem expect_bar : (pairRd (F := F) m).expect (barCell c) 0 = 1 := by
  unfold Schedule.expect Schedule.amountOf; rw [duties_bar, Finset.sum_singleton, amount_bar]
theorem expect_send : (pairRd (F := F) m).expect (sendCell c) 0 = NC := by
  unfold Schedule.expect Schedule.amountOf; rw [duties_send, Finset.sum_singleton, amount_send]
theorem expect_recv : (pairRd (F := F) m).expect (recvCell c) 0 = NC := by
  unfold Schedule.expect Schedule.amountOf; rw [duties_recv, Finset.sum_singleton, amount_recv]

theorem payload_bar (d : Unit) : (pairRd (F := F) m).payload (barCell c) 0 d = barPay c := by dsimp only [pairRd]; rw [if_pos rfl]
theorem payload_send (d : Unit) : (pairRd (F := F) m).payload (sendCell c) 0 d = sendPay m c := by
  dsimp only [pairRd]; rw [if_neg send_ne_bar, if_neg send_ne_recv, if_pos rfl]
theorem payload_recv (d : Unit) : (pairRd (F := F) m).payload (recvCell c) 0 d = recvPay m c := by
  dsimp only [pairRd]; rw [if_neg recv_ne_bar, if_pos rfl]

/-- The barrier cell's round, nothing taken yet: the partner's payload. -/
theorem rest_bar : bigSep ((pairRd (F := F) m).duties (barCell c) 0 \ ∅) (fun d => (pairRd (F := F) m).payload (barCell c) 0 d) = barPay c := by
  rw [Finset.sdiff_empty, duties_bar, bigSep_singleton, payload_bar]
theorem rest_send : bigSep ((pairRd (F := F) m).duties (sendCell c) 0 \ ∅) (fun d => (pairRd (F := F) m).payload (sendCell c) 0 d) = sendPay m c := by
  rw [Finset.sdiff_empty, duties_send, bigSep_singleton, payload_send]
theorem rest_recv : bigSep ((pairRd (F := F) m).duties (recvCell c) 0 \ ∅) (fun d => (pairRd (F := F) m).payload (recvCell c) 0 d) = recvPay m c := by
  rw [Finset.sdiff_empty, duties_recv, bigSep_singleton, payload_recv]

end Tables

/-! ## What each device owes at launch; the waiting order -/

/-- Device `c` owes its partner's receive cell one buffer's credit and its partner's barrier cell one unit; the signal
    (made first) pays the last summand. -/
def O₀ (c : Dev nD) : CellTallies nD τ sig Unit := tallyAt (recvCell (nbr c)) () NC + tallyAt (barCell (nbr c)) () 1

def L (g : GSem nD τ sig) : Finset Unit := if g.1.2 = .tc then {()} else ∅
/-- Barrier cells at 1, receive cells at 2, every other cell (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (nbr c) ∨ g = barCell (nbr c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging cell (level 0), owing the launch debts or nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (nbr c)) () NC) :=
  MayOwe.of_cut (L := L) (lev := lv) 1 (fun p hp => by rw [Finset.mem_singleton.mp hp, L_tc]; exact Finset.mem_singleton_self _)
    (fun g u hg => by
      rw [tallyAt_apply] at hg
      by_cases h : g = recvCell (nbr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nbr c) ∧ u = ()
      · rw [h.1]; dsimp only [lv]; rw [if_neg recv_ne_bar, if_pos rfl]; decide
      · rw [if_neg h] at hg; exact absurd hg (Nat.lt_irrefl 0))

end Cert.KernelIdealProof

end
-- ==== Proof.KernelIdeal.Data.lean ====
/-
  What each device holds before and after the kernel's one grid point, for the launch theorem.

  Before the point a device holds, of the exchange: the invariants of the five cells it touches (its own three, its
  partner's barrier and receive cells), its position at the first round of its own three cells, the tokens of the three
  duties IT pays (its partner's barrier unit, its partner's receive credit, its own send credit), the credit dealt to
  it at launch (one unit on its barrier cell, one buffer's credit on its receive cell), and both scratch buffers at
  arbitrary contents. After the point it holds the sending buffer as sent, the landing buffer holding what its partner
  sent, and its own two semaphores back at zero; the result's staging buffer holds the normalised sum.
-/
import proofs.«900393_g7700000000000394_dist_rsrms_v7x_xyz2x2x2_y_m512_d512_bf16_1_alg».proof.Proof.KernelIdeal.Protocol

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The invariants of the cells device `c`'s body opens, at the names `K` the launch allocated them under. -/
def invs (K : Dev nD × Fin 3 → ℕ) (c : Dev nD) : sProp 𝕄 :=
  iprop(cellInv EX (pairRd m) (K (c, 0)) (barCell c) ∗ cellInv EX (pairRd m) (K (c, 1)) (sendCell c) ∗ cellInv EX (pairRd m) (K (c, 2)) (recvCell c)
    ∗ cellInv EX (pairRd m) (K (nbr c, 0)) (barCell (nbr c)) ∗ cellInv EX (pairRd m) (K (nbr c, 2)) (recvCell (nbr c)))

instance invs_persistent (K : Dev nD × Fin 3 → ℕ) (c : Dev nD) : BI.Persistent (invs m K c) := by unfold invs; infer_instance

/-- The exchange's ghost state device `c` starts from. -/
def ghost (K : Dev nD × Fin 3 → ℕ) (c : Dev nD) : sProp 𝕄 :=
  iprop(invs m K c
    ∗ atPos EX (barCell c) 0 ∅ 0 ∗ atPos EX (sendCell c) 0 ∅ 0 ∗ atPos EX (recvCell c) 0 ∅ 0
    ∗ reached EX (barCell (nbr c)) 0 ∗ reached EX (recvCell (nbr c)) 0 ∗ reached EX (sendCell c) 0 ∗ reached EX (recvCell c) 0
    ∗ dutyTok EX (barCell (nbr c)) 0 () ∗ dutyTok EX (recvCell (nbr c)) 0 () ∗ dutyTok EX (sendCell c) 0 ())

/-- What device `c`'s body starts from: the ghost state at some names, its launch credit and the waiting order. -/
def start (c : Dev nD) : sProp 𝕄 :=
  iprop((∃ K, ghost m K c) ∗ cred (tallyAt (barCell c) () 1) ∗ cred (tallyAt (recvCell c) () NC) ∗ levAts L lv)

def Φ₀ (c : Dev nD) : sProp 𝕄 := iprop(start m c ∗ (∃ f, sPts c f) ∗ (∃ f, rPts c f))
def Φ₁ (c : Dev nD) : sProp 𝕄 := iprop(sPts c (sent m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => pblk m c
    | ⟨1, _⟩ => gblk m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The two input windows' staging buffers hold the device's argument arrays when the body runs. -/
theorem before_0 (c : Dev nD) (d) : (dats m 0 c).before (0 : Fin 3) t₀ d = pblk m c :=
  ((dats m 0 c).before_in_eq_fetched 0 rfl (fun _ => rfl) (fun _ _ _ => rfl)
      (fun t => by rw [fin_N0 t]; show pblk m c = _; unfold pblk Dat.blockOf iblk; rfl) t₀ d).trans
    (by unfold Dat.fetched Dat.blockOf pblk iblk; rfl)
theorem before_1 (c : Dev nD) (d) : (dats m 0 c).before (1 : Fin 3) t₀ d = gblk m c :=
  ((dats m 0 c).before_in_eq_fetched 1 rfl (fun _ => rfl) (fun _ _ _ => rfl)
      (fun t => by rw [fin_N0 t]; show gblk m c = _; unfold gblk Dat.blockOf iblk; rfl) t₀ d).trans
    (by unfold Dat.fetched Dat.blockOf gblk iblk; rfl)

end Cert.KernelIdealProof

end
-- ==== Proof.KernelIdeal.Body.lean ====
/-
  One device's body, run once at a symbolic device.

  In program order: the device reads its own id; signals its partner's barrier cell, handing over its landing buffer;
  waits on its own barrier cell and receives its partner's landing buffer; loads the partner's rows of its block, rounds
  them and stores them into the sending buffer; copies the sending buffer into the partner's landing buffer (paying its
  own send duty and its partner's receive duty); waits for its send cell (the sending buffer is back) and for its
  receive cell (its landing buffer now holds what the partner sent); loads its own rows, the landing buffer and the
  scale vector, and stores the normalised, scaled sum into the result's staging buffer. At the end both of its own
  cells have no round left and are closed, which returns their semaphores at zero.
-/
import proofs.«900393_g7700000000000394_dist_rsrms_v7x_xyz2x2x2_y_m512_d512_bf16_1_alg».proof.Proof.KernelIdeal.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

/-! The schedule's tables once more, with every payload spelt down to the buffer it hands over, held whole. -/

omit [FloatOps F] in
theorem sPts_whole (c : Dev nD) (f) : sPts (F := F) c f = ((sM : Memref sig .tc .vmem S512x512 .bf16).view.loc (c : Thread nD τ) ↦{fullShare} f : sProp 𝕄) := by
  unfold sPts; rw [View.set_whole]
omit [FloatOps F] in
theorem rPts_whole (c : Dev nD) (f) : rPts (F := F) c f = ((rM : Memref sig .tc .vmem S512x512 .bf16).view.loc (c : Thread nD τ) ↦{fullShare} f : sProp 𝕄) := by
  unfold rPts; rw [View.set_whole]

/-- A device's own barrier cell: its partner's landing buffer, and that the partner's receive cell is open. -/
theorem pay_bar (c : Dev nD) (d : Unit) : (pairRd (F := F) m).payload (barCell c) 0 d
    = iprop((∃ f, ((rM : Memref sig (nbr c : Thread nD τ).2.kind .vmem S512x512 .bf16).view.loc (nbr c : Thread nD τ) ↦{fullShare} f))
        ∗ reached EX (recvCell (nbr c)) 0) := by
  rw [payload_bar]; unfold barPay; simp only [rPts_whole]
theorem pay_send (c : Dev nD) (d : Unit) : (pairRd (F := F) m).payload (sendCell c) 0 d
    = ((sM : Memref sig .tc .vmem S512x512 .bf16).view.loc (c : Thread nD τ) ↦{fullShare} sent m c : sProp 𝕄) := by
  rw [payload_send]; unfold sendPay; rw [sPts_whole]
theorem pay_recv (c : Dev nD) (d : Unit) : (pairRd (F := F) m).payload (recvCell c) 0 d
    = ((rM : Memref sig .tc .vmem S512x512 .bf16).view.loc (c : Thread nD τ) ↦{fullShare} landed m c : sProp 𝕄) := by
  rw [payload_recv]; unfold recvPay; rw [rPts_whole]
/-- At the PARTNER's barrier cell the payload is the signalling device's own landing buffer: the partner's partner is the device itself. -/
theorem pay_bar_nbr (c : Dev nD) (d : Unit) : (pairRd (F := F) m).payload (barCell (nbr c)) 0 d
    = iprop((∃ f, ((rM : Memref sig .tc .vmem S512x512 .bf16).view.loc (c : Thread nD τ) ↦{fullShare} f))
        ∗ reached EX (recvCell c) 0) := by
  rw [pay_bar, nbr_nbr]
/-- At the PARTNER's receive cell the payload is the partner's landing buffer holding what the device itself sent. -/
theorem pay_recv_nbr (c : Dev nD) (d : Unit) : (pairRd (F := F) m).payload (recvCell (nbr c)) 0 d
    = ((rM : Memref sig .tc .vmem S512x512 .bf16).view.loc (nbr c : Thread nD τ) ↦{fullShare} sent m c : sProp 𝕄) := by
  rw [pay_recv]; unfold landed; rw [nbr_nbr]

omit [FloatOps F] in
theorem zeros2 : (![0, 0] : Fin 2 → Nat) = fun _ => 0 := funext fun a => by fin_cases a <;> rfl
omit [FloatOps F] in
theorem zeros1 : (![0] : Fin 1 → Nat) = fun _ => 0 := funext fun a => by fin_cases a; rfl

omit [FloatOps F] in
/-- A whole 512 × 512 buffer overwritten once, everywhere, holds what was stored. -/
theorem store_sM (fs w : (cc0_scratch0 : Ref sig .tc).ty.Contents (Elt F)) :
    (sM : Memref sig .tc .vmem S512x512 .bf16).view.writes (Elt F) fs [⟨r0, w⟩] = w := by
  rw [View.writes_singleton]
  exact Memref.write_access_unit_zero_univ (Elt F) cc0_scratch0 zeros2 _ fs w
omit [FloatOps F] in
theorem store_oM (fo w : (cc0_stg2_0 : Ref sig .tc).ty.Contents (Elt F)) :
    (oM : Memref sig .tc .vmem S512x512 .f32).view.writes (Elt F) fo [⟨r0, w⟩] = w := by
  rw [View.writes_singleton]
  exact Memref.write_access_unit_zero_univ (Elt F) cc0_stg2_0 zeros2 _ fo w
omit [FloatOps F] in
/-- A load of a whole buffer reads the buffer. -/
theorem load_rM (f : (cc0_scratch1 : Ref sig .tc).ty.Contents (Elt F)) :
    (rM : Memref sig .tc .vmem S512x512 .bf16).view.readAt (Elt F) r0.toLoadRect f = f :=
  Memref.readAt_unit_zero (Elt F) cc0_scratch1 zeros2 _ f
omit [FloatOps F] in
theorem load_gM (f : (cc0_stg1_0 : Ref sig .tc).ty.Contents (Elt F)) :
    (gM : Memref sig .tc .vmem S512 .f32).view.readAt (Elt F) rg.toLoadRect f = f :=
  Memref.readAt_unit_zero (Elt F) cc0_stg1_0 zeros1 _ f

attribute [local sl_rounds high] pay_bar_nbr pay_recv_nbr
attribute [local sl_rounds] duties_bar duties_send duties_recv amount_bar amount_send amount_recv expect_bar expect_send expect_recv
  pay_bar pay_send pay_recv nbr_nbr

/-- The copy into the partner's landing buffer, for any device `n` that IS the partner (the printed program names it by an
    arithmetic chain over the device's own id): it pays the device's own send duty with the sending buffer and the
    partner's receive duty with the landing buffer overwritten by what was sent, and takes the receive credit off what the
    device owes. -/
theorem wp_send_pair (c n : Dev nD) (hn : n = nbr c)
    {hsc : (rM : Memref sig (Dev.tc n : Thread nD τ).2.kind .vmem S512x512 .bf16).view.ref.isScScratch = false}
    {hsrc : (sM : Memref sig .tc .vmem S512x512 .bf16).view.WordExact} {hdst : (rM : Memref sig .tc .vmem S512x512 .bf16).view.WordExact}
    {hsem : DmaTarget.Typed .vmem (.dma recvS.sem) (.remote (Dev.tc n : Thread nD τ) (rM : Memref sig .tc .vmem S512x512 .bf16) (.dma sendS.sem) hsc)}
    {α : Type} {Q : α → sProp 𝕄} {k : PUnit → Prog (TpuEff nD τ sig (Elt F) Λ₀ .tc) α}
    (fn : Buf (Elt F) ((rM : Memref sig .tc .vmem S512x512 .bf16).view.loc (nbr c : Thread nD τ))) (W : Waits sig Unit) :
    iprop(cellInv EX (pairRd m) (K (c, 1)) (sendCell c) ∗ cellInv EX (pairRd m) (K (nbr c, 2)) (recvCell (nbr c))
        ∗ sPts c (sent m c) ∗ rPts (nbr c) fn
        ∗ owes (c : Thread nD τ) (tallyAt (recvCell (nbr c)) () NC) W
        ∗ dutyTok EX (sendCell c) 0 () ∗ reached EX (sendCell c) 0
        ∗ dutyTok EX (recvCell (nbr c)) 0 () ∗ reached EX (recvCell (nbr c)) 0)
      ⊢ iprop(((cred (tallyAt (sendCell c) () NC) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  unfold sPts rPts
  exact Rounds.wp_send_pointsTo 𝒱₀ EX (pairRd m) (c : Thread nD τ) none (κ₁ := K (c, 1)) (κ₂ := K (nbr c, 2))
    (r₁ := 0) (r₂ := 0) (d₁ := ()) (d₂ := ()) (fd := fn)
    (by rw [duties_send]; exact Finset.mem_singleton_self _) (by rw [duties_recv]; exact Finset.mem_singleton_self _)
    () () NC rfl (amount_send m c ()) (amount_recv m (nbr c) ()) 0 (by rw [zero_add]) (W := W)
    (by rw [payload_send]; exact BI.Entails.refl _)
    (by rw [payload_recv]; unfold recvPay rPts; rw [landed_eq]; unfold landed; rw [nbr_nbr])

/-- What the body leaves: the sending buffer as sent, the landing buffer holding what the partner sent, the device's own two
    semaphores at zero, nothing owed, the inputs' staging buffers as found and the result's holding the normalised sum. -/
def bodyOut (c : Dev nD) : sProp 𝕄 :=
  iprop(((sM : Memref sig .tc .vmem S512x512 .bf16).view.loc (c : Thread nD τ) ↦{fullShare} sent m c)
    ∗ ((rM : Memref sig .tc .vmem S512x512 .bf16).view.loc (c : Thread nD τ) ↦{fullShare} landed m c)
    ∗ semVal (sendCell c) 0 ∗ semVal (recvCell c) 0
    ∗ (∃ W', owes (c : Thread nD τ) 0 W')
    ∗ ((pM : Memref sig .tc .vmem S1x1024x512 .f32).view.loc (c : Thread nD τ) ↦{fullShare} pblk m c)
    ∗ ((gM : Memref sig .tc .vmem S512 .f32).view.loc (c : Thread nD τ) ↦{fullShare} gblk m c)
    ∗ ((oM : Memref sig .tc .vmem S512x512 .f32).view.loc (c : Thread nD τ) ↦{fullShare} outAt m c))

theorem sound_body (c : Dev nD) (W : Waits sig Unit)
    (fs : Buf (Elt F) ((sM : Memref sig .tc .vmem S512x512 .bf16).view.loc (c : Thread nD τ)))
    (fr : Buf (Elt F) ((rM : Memref sig .tc .vmem S512x512 .bf16).view.loc (c : Thread nD τ)))
    (fo : Buf (Elt F) ((oM : Memref sig .tc .vmem S512x512 .f32).view.loc (c : Thread nD τ))) :
    iprop(invs m K c
        ∗ atPos EX (barCell c) 0 ∅ 0 ∗ atPos EX (sendCell c) 0 ∅ 0 ∗ atPos EX (recvCell c) 0 ∅ 0
        ∗ reached EX (barCell (nbr c)) 0 ∗ reached EX (recvCell (nbr c)) 0 ∗ reached EX (sendCell c) 0 ∗ reached EX (recvCell c) 0
        ∗ dutyTok EX (barCell (nbr c)) 0 () ∗ dutyTok EX (recvCell (nbr c)) 0 () ∗ dutyTok EX (sendCell c) 0 ()
        ∗ cred (tallyAt (barCell c) () 1) ∗ cred (tallyAt (recvCell c) () NC) ∗ levAts L lv
        ∗ ((sM : Memref sig .tc .vmem S512x512 .bf16).view.loc (c : Thread nD τ) ↦{fullShare} fs)
        ∗ ((rM : Memref sig .tc .vmem S512x512 .bf16).view.loc (c : Thread nD τ) ↦{fullShare} fr)
        ∗ owes (c : Thread nD τ) (tallyAt (recvCell (nbr c)) () NC + tallyAt (barCell (nbr c)) () 1) W
        ∗ ((pM : Memref sig .tc .vmem S1x1024x512 .f32).view.loc (c : Thread nD τ) ↦{fullShare} pblk m c)
        ∗ ((gM : Memref sig .tc .vmem S512 .f32).view.loc (c : Thread nD τ) ↦{fullShare} gblk m c)
        ∗ ((oM : Memref sig .tc .vmem S512x512 .f32).view.loc (c : Thread nD τ) ↦{fullShare} fo))
      ⊢ wp frame (wpE (defs₀ (F := F)) 𝒱₀ c none) Set.univ
          (cc0_body pM (Memref.isWhole_whole _) gM (Memref.isWhole_whole _) oM (Memref.isWhole_whole _)
            sM (Memref.isWhole_whole _) rM (Memref.isWhole_whole _) cc0_scratch2 cc0_scratch3)
          (fun _ => bodyOut m c) := by
  -- the waiting order at the barrier wait, and that both printed device chains name the partner
  have hmw := mayWait_bar (F := F) c
  have hd1 := dev1_eq c
  have hd2 := dev2_eq c
  unfold invs
  iintro ⟨⟨#HIb, #HIs, #HIr, #HIbn, #HIrn⟩, Hab, Has, Har, #Hrbn, #Hrrn, #Hrs, #Hrr, Htbn, Htrn, Hts, Hcb, Hcr, #Hlev, Hs, Hr, HO, Hp, Hg, Ho⟩
  -- the id, the signal, the barrier wait, the load of the partner's rows and the store into the sending buffer
  set_option sl_exec.maxSteps 14 in sl_exec
  -- the sending buffer, overwritten once everywhere, holds what was stored
  rw [store_sM]
  simp (config := { proj := false }) only [Prog.lift, Prog.bind_op, Prog.bind_ret, Prog.pure_eq_ret]
  irevert Hs
  irevert Hab_pay1
  iintro Hland Hsend
  -- the copy into the partner's landing buffer
  iapply (wp_send_pair m K c ⟨k0_dev2 c, k0_dev2_lt c⟩ (dev2_eq c) Hab_pay1_v _) $$ [Hsend Hland HO Hts Htrn]
  · isplitr; · iexact HIs
    isplitr; · iexact HIrn
    isplitl [Hsend]; · rw [sPts_whole]; iexact Hsend
    isplitl [Hland]; · rw [rPts_whole]; iexact Hland
    isplitl [HO]; · iexact HO
    isplitl [Hts]; · iexact Hts
    isplitr; · iexact Hrs
    isplitl [Htrn]; · iexact Htrn
    iexact Hrrn
  iintro ⟨Hcs, HO⟩
  -- the two waits, the three loads and the store of the result
  sl_exec
  -- the result's staging buffer, overwritten once everywhere, holds the stored value; the whole-buffer loads read the buffers
  rw [store_oM, load_rM, load_gM]
  -- both own cells have no round left: closed, their semaphores come back at zero
  imod (Rounds.cell_close EX (pairRd m) (g := sendCell c) (κ := K (c, 1)) (Set.mem_univ _) (fun h => h) (R := 1)
    (fun r hr => duties_later m (sendCell c) r hr)) $$ [Has] with Hzs
  · isplitr; · iexact HIs
    iexact Has
  imod (Rounds.cell_close EX (pairRd m) (g := recvCell c) (κ := K (c, 2)) (Set.mem_univ _) (fun h => h) (R := 1)
    (fun r hr => duties_later m (recvCell c) r hr)) $$ [Har] with Hzr
  · isplitr; · iexact HIr
    iexact Har
  sl_step
  unfold bodyOut
  isplitl [Has_pay1]; · iexact Has_pay1
  isplitl [Har_pay1]; · iexact Har_pay1
  isplitl [Hzs]; · iexact Hzs
  isplitl [Hzr]; · iexact Hzr
  isplitl [HO]; · iexists _; iexact HO
  isplitl [Hp]; · iexact Hp
  isplitl [Hg]; · iexact Hg
  iexact Ho

/-! ## The body obligation, in the launch theorem's form -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ m c ∗ (dats m 0 c).owesAt () t₀.succ ∗ stg c cc0_stg0_0 (pblk m c) ∗ stg c cc0_stg1_0 (gblk m c) ∗ stg c cc0_stg2_0 (outAt m c))

theorem bodyOut_post (c : Dev nD) : bodyOut m c ⊢ bodyPost m c := by
  unfold bodyOut bodyPost Φ₁
  iintro ⟨Hs, Hr, Hzs, Hzr, ⟨%W', HO⟩, Hp, Hg, Ho⟩
  isplitl [Hs Hr Hzs Hzr]
  · isplitl [Hs]; · rw [sPts_whole]; iexact Hs
    isplitl [Hr]; · rw [rPts_whole]; iexact Hr
    isplitl [Hzs] <;> iassumption
  isplitl [HO]
  · unfold Dat.owesAt Pipeline.owesWithin
    iexists W'
    isplitr; · ipureintro; exact fun x _ => Or.inl (Set.mem_univ x)
    iexact HO
  isplitl [Hp]; · iexists _; isplitr; · ipureintro; rfl
                  iexact Hp
  isplitl [Hg]; · iexists _; isplitr; · ipureintro; rfl
                  iexact Hg
  iexists _; isplitr; · ipureintro; rfl
  iexact Ho

/-- The body from the launch theorem's pre: the windows' staging buffers opened, the ghost state unpacked. -/
theorem body_run (c : Dev nD) : bodyPre m c ⊢ wp frame (wpE (defs₀ (F := F)) 𝒱₀ c none) Set.univ
    (cc0_body pM (Memref.isWhole_whole _) gM (Memref.isWhole_whole _) oM (Memref.isWhole_whole _)
      sM (Memref.isWhole_whole _) rM (Memref.isWhole_whole _) cc0_scratch2 cc0_scratch3) (fun _ => bodyOut m c) := by
  unfold bodyPre Φ₀ start ghost Dat.owesAt Pipeline.owesWithin
  simp (config := { proj := false }) only [before_0, before_1, sPts_whole, rPts_whole]
  iintro ⟨⟨⟨⟨%K, HI, Hab, Has, Har, Hrbn, Hrrn, Hrs, Hrr, Htbn, Htrn, Hts⟩, Hcb, Hcr, Hlev⟩, ⟨%fs, Hs⟩, ⟨%fr, Hr⟩⟩, ⟨%W, %hW, HO⟩, ⟨%d0, %f0, %h0, Hp⟩, ⟨%d1, %f1, %h1, Hg⟩, ⟨%d2, %fo, %h2, Ho⟩⟩
  subst h0
  subst h1
  iapply (sound_body m K c W fs fr fo)
  isplitl [HI]; · iexact HI
  isplitl [Hab]; · iexact Hab
  isplitl [Has]; · iexact Has
  isplitl [Har]; · iexact Har
  isplitl [Hrbn]; · iexact Hrbn
  isplitl [Hrrn]; · iexact Hrrn
  isplitl [Hrs]; · iexact Hrs
  isplitl [Hrr]; · iexact Hrr
  isplitl [Htbn]; · iexact Htbn
  isplitl [Htrn]; · iexact Htrn
  isplitl [Hts]; · iexact Hts
  isplitl [Hcb]; · iexact Hcb
  isplitl [Hcr]; · iexact Hcr
  isplitl [Hlev]; · iexact Hlev
  isplitl [Hs]; · iexact Hs
  isplitl [Hr]; · iexact Hr
  isplitl [HO]; · iexact HO
  isplitl [Hp]; · iexact Hp
  isplitl [Hg]; · iexact Hg
  iexact Ho

/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact (body_run m c).trans (wp_mono frame (wpE (defs₀ (F := F)) 𝒱₀ c none) Set.univ (fun _ => bodyOut_post m c))

end Body

end Cert.KernelIdealProof

end
-- ==== Proof.KernelIdeal.Launch.lean ====
/-
  The launch: from "every device's body is proved" to the run of the whole program.

  The launch element funds, beside the pipeline's own staging cells, the three cells of every device (barrier, send,
  receive), each at its first round, with one duty token per cell. One global step allocates all twenty-four cell
  invariants at once (a device's body opens two of its partner's), and deals each device the tokens of the duties IT
  pays: its partner's barrier unit, its partner's receive credit, its own send credit. What a device is owed at launch
  is what its partner owes: one barrier unit and one buffer's credit.
-/
import proofs.«900393_g7700000000000394_dist_rsrms_v7x_xyz2x2x2_y_m512_d512_bf16_1_alg».proof.Proof.KernelIdeal.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, the tokens and the launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- One duty token per cell: the cell's only round, its only duty. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own cells. -/
def toks (c : Dev nD) : sProp 𝕄 :=
  iprop(dutyTok EX (barCell c) 0 () ∗ dutyTok EX (sendCell c) 0 () ∗ dutyTok EX (recvCell c) 0 ())

/-- What the launch element deals device `c`. -/
def G (c : Dev nD) : sProp 𝕄 :=
  iprop((bigSep Finset.univ fun k : Fin 3 => roundState EX (pairRd m) (kcell (c, k)) 0)
    ∗ (bigSep Finset.univ fun k : Fin 3 => iprop(atPos EX (kcell (c, k)) 0 ∅ 0 ∗ reached EX (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (EX (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok EX x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund EX (pairRd m) pairCells pairToks) $$ HX with ⟨Hst, Hr, Hat, Htok⟩
  imodintro
  ihave Hst' := (Entails.of_eq (hX fun g => roundState EX (pairRd m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (pairRd m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState EX (pairRd m) (kcell (c, k)) 0)
      ⊢ (|={Set.univ}=> bigSep Finset.univ fun k => iprop(∃ κ : ℕ, cellInv EX (pairRd m) κ (kcell (c, k))) : sProp 𝕄) from by
        rw [← bigSep_sep']
        exact (bigSep_mono fun k _ => (Rounds.body_intro EX (pairRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and that every cell's first round is open: what all devices share. -/
def records (K : Dev nD × Fin 3 → ℕ) : sProp 𝕄 :=
  iprop((bigSep Finset.univ fun ck : Dev nD × Fin 3 => cellInv EX (pairRd m) (K ck) (kcell ck))
    ∗ bigSep Finset.univ fun ck : Dev nD × Fin 3 => reached EX (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv EX (pairRd m) (K ck) (kcell ck) : sProp 𝕄)) ⊢ cellInv EX (pairRd m) (K ck) (kcell ck) :=
  bigSep_elim (Finset.mem_univ ck)
omit [FloatOps F] in
theorem reached_at (ck : Dev nD × Fin 3) :
    (bigSep Finset.univ fun ck : Dev nD × Fin 3 => (reached EX (kcell ck) 0 : sProp 𝕄)) ⊢ reached EX (kcell ck) 0 :=
  bigSep_elim (Finset.mem_univ ck)

/-- What stays with device `c`: its positions, and the tokens of the duties IT pays. -/
def payToks (c : Dev nD) : sProp 𝕄 :=
  iprop(dutyTok EX (barCell (nbr c)) 0 () ∗ dutyTok EX (recvCell (nbr c)) 0 () ∗ dutyTok EX (sendCell c) 0 ())
def linear (c : Dev nD) : sProp 𝕄 :=
  iprop((atPos EX (barCell c) 0 ∅ 0 ∗ atPos EX (sendCell c) 0 ∅ 0 ∗ atPos EX (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (nbr c, 0)); iexact HI
    iapply (inv_at m K (nbr c, 2)); iexact HI
  isplitl [HaB]; · iexact HaB
  isplitl [HaS]; · iexact HaS
  isplitl [HaV]; · iexact HaV
  isplitr; · iapply (reached_at (F := F) (nbr c, 0)); iexact HR
  isplitr; · iapply (reached_at (F := F) (nbr c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt across each pair: a device's barrier and receive tokens go to its partner, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok EX (barCell c) 0 () : sProp 𝕄)),
    bigSep_univ_equiv pairing (fun c : Dev nD => (dutyTok EX (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (pairRd m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv EX (pairRd m) κ (kcell ck))),
    bigSep_congr (s := Finset.univ) (fun (c : Dev nD) _ => bigSep_sep' Finset.univ (fun k : Fin 3 => (atPos EX (kcell (c, k)) 0 ∅ 0 : sProp 𝕄)) (fun k => reached EX (kcell (c, k)) 0)),
    bigSep_sep', ← bigSep_univ_prod (fun ck : Dev nD × Fin 3 => (reached EX (kcell ck) 0 : sProp 𝕄))]
  iintro ⟨HI, ⟨Hat, #HR⟩, Htok⟩
  ihave HK := (BI.bigSep_exists_pi Finset.univ (fun (ck : Dev nD × Fin 3) (κ : ℕ) => (cellInv EX (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos EX (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: one unit if `d` is `c`'s partner. -/
theorem owed_bar (d c : Dev nD) : O₀ d (barCell c) () = if d = nbr c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = nbr c
  · subst h; rw [nbr_nbr, if_pos ⟨rfl, rfl⟩, if_pos rfl]
  · rw [if_neg (fun ⟨h1, _⟩ => h (by rw [← nbr_nbr d]; exact congrArg nbr (bar_eq_iff.mp h1).symm)), if_neg h]

omit [FloatOps F] in
/-- What device `d` owes device `c`'s receive cell: one buffer's credit if `d` is `c`'s partner. -/
theorem owed_recv (d c : Dev nD) : O₀ d (recvCell c) () = if d = nbr c then NC else 0 := by
  unfold O₀
  rw [Pi.add_apply, Finsupp.add_apply, tallyAt_apply,
    tallyAt_ne_cell (fun h => recv_ne_bar (congrArg Prod.snd h)), Finsupp.zero_apply, Nat.add_zero]
  by_cases h : d = nbr c
  · subst h; rw [nbr_nbr, if_pos ⟨rfl, rfl⟩, if_pos rfl]
  · rw [if_neg (fun ⟨h1, _⟩ => h (by rw [← nbr_nbr d]; exact congrArg nbr (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nbr c) fun _ => 1, if_pos (Finset.mem_univ _)]

omit [FloatOps F] in
theorem launch_recv (c : Dev nD) :
    tallyOn (recvCell c) (launchCredit (Pipeline.owing O₀) 0 (recvCell c)) = (tallyAt (recvCell c) () NC : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (nbr c) fun _ => NC, if_pos (Finset.mem_univ _)]

omit [FloatOps F] in
theorem creds (c : Dev nD) :
    (Pipeline.launchCred O₀ c : sProp 𝕄) ⊢ iprop(cred (tallyAt (barCell c) () 1) ∗ cred (tallyAt (recvCell c) () NC)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  isplitl [Hs]; · iexact Hs
  isplitl [Hf]
  · iexists f; rw [sPts_eq]; iexact Hf
  · iexists g; rw [rPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hs, Hr, HzS, HzV⟩
  isplitr; · iempintro
  isplitl [HzS HzV]
  · isplitl [HzS] <;> iassumption
  isplitl [Hs]
  · iexists (sent m c); rw [← sPts_eq]; iexact Hs
  · iexists (landed m c); rw [← rPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: if every device's
    body meets its obligation, every weakly fair execution of @main — each pair of devices handshaking on the runtime's
    barrier semaphore, then exchanging halves of their blocks — terminates, and every final state has each window's
    array on each device at the contents the proof data computes. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The final arrays -/

/-- The block of the summands and the scale vector end as launched. -/
theorem finalA_0 (c : Dev nD) : finalA m c (0 : Fin 3) = m ((c : Thread nD τ).loc main_arg0) :=
  (dats (F := F) m 0 c).arrAt_in (0 : Fin 3) rfl _
theorem finalA_1 (c : Dev nD) : finalA m c (1 : Fin 3) = m ((c : Thread nD τ).loc main_arg1) :=
  (dats (F := F) m 0 c).arrAt_in (1 : Fin 3) rfl _

/-- The result array ends holding the normalised sum: the one write-back writes the whole staged result over it. -/
theorem finalA_2 (c : Dev nD) : finalA m c (2 : Fin 3) = outAt m c := by
  have h := (dats (F := F) m 0 c).arrAt_succ (2 : Fin 3) t₀
  rw [flush0_2 t₀, if_pos rfl] at h
  refine (show finalA m c 2 = (dats m 0 c).arrAt 2 (t₀.val + 1) from rfl).trans (h.trans ?_)
  exact Memref.write_access_unit_zero_univ (Elt F) main_v1 (funext fun a => Nat.zero_mul _) _ _ _

/-! ### The run, in the shape the claims read -/

/-- The run with the strongest post: on every device the result array holds the normalised sum of the device's own
    rows and what its partner sent, as a pure term of the launch memory, and both argument arrays are unchanged. -/
theorem run_claim (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (finalA_2 m c), (h c 0).trans (finalA_0 m c), (h c 1).trans (finalA_1 m c)⟩)
    (run_main m ρ hbody)

/-- info: 'Cert.KernelIdealProof.run_claim' depends on axioms: [propext, Classical.choice, Quot.sound] -/
#guard_msgs in #print axioms run_claim

end Cert.KernelIdealProof

end
-- ==== Proof.LibNormLaws.lean ====
/-
  Two laws of the extended reals that join a batch-normalised layer written with a reciprocal
  square root to the same layer written with a quotient by the square root, and a leaky rectifier
  selected on "strictly positive" to the same rectifier selected on "non-negative".

  * For a real argument `y > 0` the reciprocal root `rsqrt y` is the real `(√y)⁻¹` and the root
    `sqrt y` the real `√y ≠ 0`, so for EVERY extended real `a` (the infinities included) the
    product `a · rsqrt y` and the quotient `a / sqrt y` are the same extended real
    `a · (√y)⁻¹`. (For `y ≤ 0` the two differ: the quotient by `sqrt y = ⊥` is `0` where the
    product with `rsqrt y = ⊥` is an infinity; hence the hypothesis.)
  * `if 0 < x then x else c · x` and `if 0 ≤ x then x else c · x` differ only at `x = 0`, where the
    second branch is `c · 0 = 0 = x`.
-/
import Idealize.ShloMosaic.PureOps.Ideal

namespace Cert.Lib.NormLaws

open Idealize.ShloMosaic

/-- The reciprocal root of a positive real is the real `(√y)⁻¹`. -/
theorem rsqrt_pos {y : ℝ} (hy : 0 < y) : Ideal.rsqrt (y : EReal) = (((Real.sqrt y)⁻¹ : ℝ) : EReal) := by
  rw [Ideal.rsqrt_coe, if_neg (not_lt.mpr hy.le), if_neg hy.ne']

/-- The root of a positive real is the real `√y`. -/
theorem sqrt_pos {y : ℝ} (hy : 0 < y) : Ideal.sqrt (y : EReal) = ((Real.sqrt y : ℝ) : EReal) := by
  rw [Ideal.sqrt_coe, if_neg (not_lt.mpr hy.le)]

/-- For a positive real `y`, the product with the reciprocal root is the quotient by the root, for every
    extended real numerator. -/
theorem mul_rsqrt_eq_div_sqrt (a : EReal) {y : ℝ} (hy : 0 < y) :
    a * Ideal.rsqrt (y : EReal) = Ideal.div a (Ideal.sqrt (y : EReal)) := by
  have hs : Real.sqrt y ≠ 0 := (Real.sqrt_pos.mpr hy).ne'
  rw [rsqrt_pos hy, sqrt_pos hy, Ideal.div_coe hs, one_div]

/-- The sum of a non-negative real and a positive real, as extended reals, is a positive real. -/
theorem coe_add_pos {v e : ℝ} (hv : 0 ≤ v) (he : 0 < e) :
    ∃ y : ℝ, 0 < y ∧ (v : EReal) + (e : EReal) = (y : EReal) :=
  ⟨v + e, by linarith, (EReal.coe_add v e).symm⟩

/-- A leaky rectifier selected on `0 < x` is the one selected on `0 ≤ x`: at `x = 0` the other branch
    is `c · 0 = 0`. -/
theorem leaky_gt_eq_ge (c x : EReal) :
    Scalar.select (Ideal.cmp .ogt x 0) x (c * x) = Scalar.select (Ideal.cmp .oge x 0) x (c * x) := by
  unfold Scalar.select Ideal.cmp
  rcases lt_trichotomy (0 : EReal) x with h | h | h
  · simp [h, h.le]
  · subst h; simp
  · simp [not_lt.mpr h.le, not_le.mpr h]

end Cert.Lib.NormLaws
-- ==== Proof.RsNormSpec.lean ====
/-
  The normalised cross-device sum, as ONE function of the whole arrays, and the law that joins its two spellings.

  The whole arrays are a stack `P` of two `[1024, 512]` layers and a weight vector `γ` of length 512. Write
  `s R d = P (0, R, d) + P (1, R, d)` for the sum of the two layers at row `R`, column `d`. The result at `(R, j)` is

      s R j / sqrt ((Σ_d (s R d)²) / 512 + ε) · γ j,

  with `512` and `ε` the extended reals two fixed 32-bit words denote. That is `G` below: every entry of row `R` of the
  result depends on the two layers' rows `R` only, and on one entry of `γ`.

  A second program computes the same row with a reciprocal root: `s R j · rsqrt ((Σ_d (s R d)²) / 512 + ε) · γ j`. The two
  spellings agree whenever the argument of the root is a POSITIVE REAL (for a non-positive or infinite argument they do
  not: a quotient by `sqrt ⊥ = ⊥` is `0` where the product with `rsqrt ⊥ = ⊥` is an infinity). It is one when every
  `s R d` is a real: a square of a real is a non-negative real, a finite sum of those is one, a quotient by `512` keeps
  that, and adding the positive real `ε` makes it positive. `mul_rsqrt_meanSq` is that statement.
-/
import Idealize.ShloMosaic.Lib.ValueIdx
import Idealize.ShloMosaic.PureOps.Ideal.Laws
import proofs.«900393_g7700000000000394_dist_rsrms_v7x_xyz2x2x2_y_m512_d512_bf16_1_alg».proof.Proof.LibNormLaws

noncomputable section

namespace Cert.RsNorm

open Idealize.ShloMosaic Idealize.ShloMosaic.ValueIdx

/-! ## The two constants -/

/-- The word `0x44000000` denotes the real `512`: the number of columns the mean of squares is taken over. -/
theorem ofBits_512 : Ideal.ofBits .f32 0x44000000#32 = ((512 : ℝ) : EReal) := by
  simp [Ideal.ofBits, Ideal.ieee, -EReal.coe_mul]; norm_num

/-- The word `0x358637BD` (about `10⁻⁶`) denotes a positive real: the `ε` under the root. -/
theorem ofBits_eps_pos : ∃ e : ℝ, 0 < e ∧ Ideal.ofBits .f32 0x358637BD#32 = (e : EReal) := by
  simp [Ideal.ofBits, Ideal.ieee, -EReal.coe_mul]

/-! ## The specification -/

/-- The sum of the two layers of the stack at row `R`, column `d`. -/
def rowSum (P : (⟨3, ![2, 1024, 512]⟩ : Shape).Idx → EReal) (R : Fin 1024) (d : Fin 512) : EReal :=
  P (ix3 (0 : Fin 2) R d) + P (ix3 (1 : Fin 2) R d)

/-- What stands under the root for row `R`: the mean over the 512 columns of the squared layer sums, plus `ε`. -/
def meanSqEps (s : Fin 512 → EReal) : EReal :=
  Ideal.div (∑ d : Fin 512, s d * s d) (Ideal.ofBits .f32 0x44000000#32) + Ideal.ofBits .f32 0x358637BD#32

/-- The result at row `R`, column `j`: the layer sum there, divided by the root of the row's mean square plus `ε`,
    times the weight of column `j`. -/
def Gat (P : (⟨3, ![2, 1024, 512]⟩ : Shape).Idx → EReal) (γ : (⟨1, ![512]⟩ : Shape).Idx → EReal)
    (R : Fin 1024) (j : Fin 512) : EReal :=
  Ideal.div (rowSum P R j) (Ideal.sqrt (meanSqEps (rowSum P R))) * γ (ix1 j)

/-- THE SPECIFICATION: the `[1024, 512]` result as one function of the whole stack `P` and the weights `γ`. -/
def G (P : (⟨3, ![2, 1024, 512]⟩ : Shape).Idx → EReal) (γ : (⟨1, ![512]⟩ : Shape).Idx → EReal) :
    (⟨2, ![1024, 512]⟩ : Shape).Idx → EReal :=
  fun i => Gat P γ (i 0) (i 1)

/-- The specification at an index given by its coordinates. -/
theorem G_ix2 (P : (⟨3, ![2, 1024, 512]⟩ : Shape).Idx → EReal) (γ : (⟨1, ![512]⟩ : Shape).Idx → EReal)
    (R : Fin 1024) (j : Fin 512) : G P γ (ix2 R j) = Gat P γ R j := rfl

/-! ## Finite sums of reals, as extended reals -/

/-- The coercion of a finite sum of reals is the sum of the coercions. -/
theorem coe_finset_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- When every `s d` is a real, what stands under the root is a positive real: squares of reals are non-negative
    reals, so is their finite sum and its quotient by `512`, and `ε` is positive. -/
theorem meanSqEps_pos (s : Fin 512 → EReal) (hs : ∀ d, ∃ x : ℝ, s d = (x : EReal)) :
    ∃ v : ℝ, 0 < v ∧ meanSqEps s = (v : EReal) := by
  choose x hx using hs
  obtain ⟨e, he, hε⟩ := ofBits_eps_pos
  have hsum : (∑ d : Fin 512, s d * s d) = ((∑ d : Fin 512, x d * x d : ℝ) : EReal) := by
    rw [coe_finset_sum]
    exact Finset.sum_congr rfl fun d _ => by rw [hx d, EReal.coe_mul]
  have hq : 0 ≤ (∑ d : Fin 512, x d * x d) * (1 / 512 : ℝ) :=
    mul_nonneg (Finset.sum_nonneg fun d _ => mul_self_nonneg (x d)) (by norm_num)
  obtain ⟨v, hv, hve⟩ := Cert.Lib.NormLaws.coe_add_pos hq he
  refine ⟨v, hv, ?_⟩
  unfold meanSqEps
  rw [hsum, ofBits_512, Ideal.div_coe (by norm_num : (512 : ℝ) ≠ 0), ← EReal.coe_mul, hε, hve]

/-- THE JOINING LAW. With every `s d` a real, the product with the reciprocal root of the row's mean square plus `ε` is
    the quotient by its root, for every extended real numerator `a` and weight `g`. -/
theorem mul_rsqrt_meanSq (s : Fin 512 → EReal) (hs : ∀ d, ∃ x : ℝ, s d = (x : EReal)) (a g : EReal) :
    a * Ideal.rsqrt (meanSqEps s) * g = Ideal.div a (Ideal.sqrt (meanSqEps s)) * g := by
  obtain ⟨v, hv, hve⟩ := meanSqEps_pos s hs
  rw [hve, Cert.Lib.NormLaws.mul_rsqrt_eq_div_sqrt a hv]

/-- The sum of two reals is a real. -/
theorem add_real {a b : EReal} (ha : ∃ x : ℝ, a = (x : EReal)) (hb : ∃ x : ℝ, b = (x : EReal)) :
    ∃ x : ℝ, a + b = (x : EReal) := by
  obtain ⟨x, rfl⟩ := ha
  obtain ⟨y, rfl⟩ := hb
  exact ⟨x + y, (EReal.coe_add x y).symm⟩

end Cert.RsNorm

end
-- ==== Proof.RsNormRef.lean ====
/-
  The one-device program computes the specification.

  Read one operation at a time (the generated stage lemmas), the one-device program at row `R`, column `j` is: the sum over
  the stack's two layers from the initial value `0` — which is `rowSum P R j`, since `0 + (a + b) = a + b` —; its square;
  the sum of the squares along the row from `0`; the quotient by `512`; plus `ε`; the root; the layer sum divided by that
  root; times the weight of column `j`. The layout operations in between (a vector made a column, a column repeated along
  the rows, the weights made a row and repeated down the columns) only move indices: each is an index equation, decided
  coordinate by coordinate. So the program's result is `G P γ`, index by index, with no hypothesis on the arrays.
-/
import proofs.«900393_g7700000000000394_dist_rsrms_v7x_xyz2x2x2_y_m512_d512_bf16_1_alg».proof.Proof.Gen.ReferenceIdeal.Read
import proofs.«900393_g7700000000000394_dist_rsrms_v7x_xyz2x2x2_y_m512_d512_bf16_1_alg».proof.Proof.RsNormSpec

noncomputable section

namespace Cert.RsNorm

open Cert.ReferenceIdeal Cert.ReferenceIdeal.Gen Cert.ReferenceIdeal.Read
open Idealize.ShloMosaic Idealize.ShloMosaic.ValueIdx

/-! ## Where the layout operations read -/

theorem idx_v0 (R : Fin 1024) (d : Fin 512) (k : Fin 2) : idx_main_v0 (ix2 R d) k = ix3 k R d :=
  funext fun a => Fin.ext (by match a with | ⟨0, _⟩ => rfl | ⟨1, _⟩ => rfl | ⟨2, _⟩ => rfl)

theorem idx_v2 (R : Fin 1024) (d : Fin 512) : idx_main_v2 (ix1 R) d = ix2 R d :=
  funext fun a => Fin.ext (by match a with | ⟨0, _⟩ => rfl | ⟨1, _⟩ => rfl)

theorem idx_v3 (R : Fin 1024) (u : Fin 1) : idx_main_v3 (ix2 R u) = ix1 R :=
  funext fun a => Fin.ext (by match a with | ⟨0, _⟩ => rfl)

theorem idx_v9 (R : Fin 1024) (j : Fin 512) : idx_main_v9 (ix2 R j) = ix2 R (0 : Fin 1) :=
  funext fun a => Fin.ext (by match a with | ⟨0, _⟩ => rfl | ⟨1, _⟩ => rfl)

theorem idx_v11_v12 (R : Fin 1024) (j : Fin 512) : idx_main_v11 (idx_main_v12 (ix2 R j)) = ix1 j :=
  funext fun a => Fin.ext (by match a with | ⟨0, _⟩ => rfl)

/-! ## The stages at coordinates -/

/-- The sum over the stack's two layers, from `0`, is the layer sum. -/
theorem v0_at (x0 : (⟨S2x1024x512, .f32⟩ : BufTy).Contents (Elt Ideal)) (R : Fin 1024) (d : Fin 512) :
    val_main_v0 (F := Ideal) x0 (ix2 R d) = rowSum x0 R d := by
  rw [val_main_v0_apply, val_main_cst_apply, Fin.sum_univ_two, idx_v0, idx_v0, Ideal.ofBits_def,
    Ideal.ofBits_zero_f32, zero_add]
  rfl

/-- The sum along row `R` of the squared layer sums, from `0`. -/
theorem v2_at (x0 : (⟨S2x1024x512, .f32⟩ : BufTy).Contents (Elt Ideal)) (R : Fin 1024) :
    val_main_v2 (F := Ideal) x0 (ix1 R) = ∑ d : Fin 512, rowSum x0 R d * rowSum x0 R d := by
  rw [val_main_v2_apply, val_main_cst_0_apply, Ideal.ofBits_def, Ideal.ofBits_zero_f32, zero_add]
  refine Finset.sum_congr rfl fun d _ => ?_
  rw [idx_v2, val_main_v1_apply, v0_at]
  rfl

/-- The root of the row's mean square plus `ε`, kept as a column. -/
theorem v8_at (x0 : (⟨S2x1024x512, .f32⟩ : BufTy).Contents (Elt Ideal)) (R : Fin 1024) (u : Fin 1) :
    val_main_v8 (F := Ideal) x0 (ix2 R u) = Ideal.sqrt (meanSqEps (rowSum x0 R)) := by
  rw [val_main_v8_apply, val_main_v7_apply, val_main_v5_apply, val_main_v3_apply, val_main_v4_apply, val_main_v6_apply,
    val_main_cst_1_apply, val_main_cst_2_apply, idx_v3, v2_at]
  rfl

/-! ## The program's result is the specification -/

/-- The last stage of the one-device program is `G` of its two arguments. -/
theorem val_main_v13_is_G (x0 : (⟨S2x1024x512, .f32⟩ : BufTy).Contents (Elt Ideal))
    (x1 : (⟨S512, .f32⟩ : BufTy).Contents (Elt Ideal)) :
    val_main_v13 (F := Ideal) x0 x1 = G x0 x1 := by
  funext i
  obtain ⟨R, j, rfl⟩ : ∃ (R : Fin 1024) (j : Fin 512), i = ix2 R j := ⟨i 0, i 1, eq_ix2 i⟩
  rw [G_ix2, val_main_v13_apply, val_main_v10_apply, val_main_v12_apply, val_main_v11_apply, val_main_v9_apply, idx_v9,
    v8_at, v0_at, idx_v11_v12]
  rfl

/-- The term the generated run states for the result buffer is `G` of the two argument arrays. -/
theorem ref_is_G (x0 : (⟨S2x1024x512, .f32⟩ : BufTy).Contents (Elt Ideal))
    (x1 : (⟨S512, .f32⟩ : BufTy).Contents (Elt Ideal)) :
    mulf (F := Ideal) (Host.divf (F := Ideal) (Host.reduceAdd (F := Ideal) (x0) (constant (F := Ideal) S_ .f32 0x00000000#32) reducesTo_S2x1024x512_S1024x512_d0 h_S_) (broadcastInDim S1024x512 ![0, 1] bcast_S1024x1_S1024x512_0_1 (Host.sqrt (F := Ideal) (addf (F := Ideal) (Host.divf (F := Ideal) (broadcastInDim S1024x1 ![0] bcast_S1024_S1024x1_0 (Host.reduceAdd (F := Ideal) (mulf (F := Ideal) (Host.reduceAdd (F := Ideal) (x0) (constant (F := Ideal) S_ .f32 0x00000000#32) reducesTo_S2x1024x512_S1024x512_d0 h_S_) (Host.reduceAdd (F := Ideal) (x0) (constant (F := Ideal) S_ .f32 0x00000000#32) reducesTo_S2x1024x512_S1024x512_d0 h_S_)) (constant (F := Ideal) S_ .f32 0x00000000#32) reducesTo_S1024x512_S1024_d1 h_S_)) (broadcastInDim S1024x1 ![] bcast_S_S1024x1 (constant (F := Ideal) S_ .f32 0x44000000#32))) (broadcastInDim S1024x1 ![] bcast_S_S1024x1 (constant (F := Ideal) S_ .f32 0x358637BD#32)))))) (broadcastInDim S1024x512 ![0, 1] bcast_S1x512_S1024x512_0_1 (broadcastInDim S1x512 ![1] bcast_S512_S1x512_1 (x1)))
      = G x0 x1 :=
  (val_main_v13_eq (F := Ideal) x0 x1).trans (val_main_v13_is_G x0 x1)

end Cert.RsNorm

end
-- ==== Proof.RsNormFinite.lean ====
/-
  Finite inputs are real inputs.

  The precondition on a device's two argument buffers is a printed predicate: for each buffer, "the absolute value of
  every entry is strictly below `+∞`", all entries of both buffers conjoined into one bit. When that bit is `1`, both
  conjuncts are `1`, so the comparison holds at every entry of each buffer. On the extended reals the absolute value
  `max x (-x)` is `+∞` exactly at the two infinities; an entry strictly below `+∞` in absolute value is therefore a
  real number.
-/
import proofs.«900393_g7700000000000394_dist_rsrms_v7x_xyz2x2x2_y_m512_d512_bf16_1_alg».proof.Pre_finite_inputs_Kernel
import Idealize.ShloMosaic.Lib.ReduceAll
import Idealize.ShloMosaic.Lib.ValueIdx

noncomputable section

namespace Cert.RsNorm

open Idealize.ShloMosaic Idealize.ShloMosaic.ValueIdx

/-- The word `0x7F800000` denotes `+∞`. -/
theorem ofBits_inf : Ideal.ofBits .f32 0x7F800000#32 = (⊤ : EReal) := by
  simp [Ideal.ofBits, Ideal.ieee]

/-- An extended real whose absolute value compares strictly below the word for `+∞` is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The scalar shape has one index. -/
instance : Subsingleton Cert.Pre_finite_inputs_Kernel.S_.Idx := ⟨fun a b => funext fun d => d.elim0⟩

/-- FINITENESS. If the printed predicate of a device's two argument buffers is all ones, every entry of the
    `[1, 1024, 512]` buffer and every entry of the `[512]` buffer is a real. -/
theorem real_of_pre [Cert.Pre_finite_inputs_Kernel.Facts]
    (A : FVec Ideal Cert.Pre_finite_inputs_Kernel.S1x1024x512 .f32) (g : FVec Ideal Cert.Pre_finite_inputs_Kernel.S512 .f32)
    (h : Cert.Pre_finite_inputs_Kernel.fn (F := Ideal) A g = (fun _ => 1#1)) :
    (∀ i, ∃ r : ℝ, A i = (r : EReal)) ∧ (∀ i, ∃ r : ℝ, g i = (r : EReal)) := by
  have h0 := congrFun h ix0
  dsimp only [Cert.Pre_finite_inputs_Kernel.fn] at h0
  obtain ⟨h1, h2⟩ := IntOp.andi_eq_one.1 h0
  exact ⟨fun i => real_of_abs_lt_inf _ (Host.reduce_andi_all _ _ _ _ _ h1 i),
    fun i => real_of_abs_lt_inf _ (Host.reduce_andi_all _ _ _ _ _ h2 i)⟩

end Cert.RsNorm

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.RsNormKernel.lean ====
/-
  Each device's result is its block of the specification.

  The eight devices sit on a 2 × 2 × 2 mesh; device `c` has the coordinate `y = (c / 2) % 2` on the middle axis. It holds
  layer `y` of the stack (as a `[1, 1024, 512]` buffer) and a copy of the weights. Its neighbour differs from it in `y` only,
  so it holds the other layer, `1 - y`.

  Device `c` is responsible for rows `512·y … 512·y + 511` of the result. It reads those rows of its own layer, receives
  the same rows of the other layer from its neighbour (the neighbour's "rows of the OTHER half", which for the neighbour
  start at `512 - 512·(1 - y) = 512·y`), and adds the two: at row `r` of its half and column `d` this is
  `P (y, 512·y + r, d) + P (1 - y, 512·y + r, d)`, the sum of the two layers in one order or the other — addition of
  extended reals commutes, so it is `rowSum P (512·y + r) d`. The narrowing and widening of the received half are the
  identity on extended reals. From there the device computes `s · rsqrt (mean of squares + ε) · γ`, which the joining law
  turns into the specification's quotient by the root because every entry read is a real (the precondition). Block
  `y` of the `[1024, 512]` specification, at `(r, j)`, is its entry `(y·512 + r, j)`: the same number.
-/
import proofs.«900393_g7700000000000394_dist_rsrms_v7x_xyz2x2x2_y_m512_d512_bf16_1_alg».proof.Proof.Gen.KernelIdeal.Skeleton
import proofs.«900393_g7700000000000394_dist_rsrms_v7x_xyz2x2x2_y_m512_d512_bf16_1_alg».proof.Proof.RsNormSpec
import proofs.«900393_g7700000000000394_dist_rsrms_v7x_xyz2x2x2_y_m512_d512_bf16_1_alg».proof.Proof.RsNormFinite
import proofs.«900393_g7700000000000394_dist_rsrms_v7x_xyz2x2x2_y_m512_d512_bf16_1_alg».proof.Proof.LibColumnLayout
import Idealize.ShloMosaic.Lib.Layout

noncomputable section

namespace Cert.RsNorm

open Cert.KernelIdeal Cert.KernelIdeal.Gen
open Idealize.ShloMosaic Idealize.ShloMosaic.ValueIdx

/-! ## The two payloads, index by index -/

/-- The half a device sends: the `[1, 512, 512]` rectangle it loaded, with the unit axis dropped; the narrowing to the
    16-bit format is the identity on extended reals. -/
theorem pay2_at (v20 : Vec Ideal S1x512x512 .f32) (r j : Fin 512) :
    k0_pay2 (F := Ideal) v20 (ix2 r j) = v20 (ix3 (0 : Fin 1) r j) := by
  have e : k0_pay2 (F := Ideal) v20
      = shapeCast S512x512 (truncf .bf16 (shapeCast S512x512 v20 shapeCasts_S1x512x512_S512x512) bitsLt_bf16_f32)
          shapeCasts_S512x512_S512x512 := rfl
  rw [e, shapeCast_self]
  exact shapeCast_1ab_ab_apply v20 shapeCasts_S1x512x512_S512x512 r j

/-- The sum of the device's own half and the received half. -/
def sumv (v40 : Vec Ideal S1x512x512 .f32) (v42 : Vec Ideal S512x512 .bf16) : FVec Ideal S512x512 .f32 :=
  addf (shapeCast S512x512 v40 shapeCasts_S1x512x512_S512x512) (extf .f32 v42 bitsLt_bf16_f32)

theorem sumv_at (v40 : Vec Ideal S1x512x512 .f32) (v42 : Vec Ideal S512x512 .bf16) (r d : Fin 512) :
    sumv v40 v42 (ix2 r d) = v40 (ix3 (0 : Fin 1) r d) + v42 (ix2 r d) :=
  congrArg (· + v42 (ix2 r d)) (shapeCast_1ab_ab_apply v40 shapeCasts_S1x512x512_S512x512 r d)

/-- The reciprocal root of each row's mean square plus `ε`, kept as a column. -/
def invRoot (s : FVec Ideal S512x512 .f32) : FVec Ideal S512x1 .f32 :=
  rsqrt (addf (divf (shapeCast S512x1 (multiReduction .add [1] S512 (mulf s s) 0x00000000#32 reduces_S512x512_S512 (.inl rfl) rfl)
      shapeCasts_S512_S512x1) (broadcast S512x1 (Scalar.ofBits .f32 0x44000000#32)))
    (broadcast S512x1 (Scalar.ofBits .f32 0x358637BD#32)))

theorem invRoot_at (s : FVec Ideal S512x512 .f32) (r : Fin 512) (u : Fin 1) :
    invRoot s (ix2 r u) = Ideal.rsqrt (meanSqEps fun d => s (ix2 r d)) := by
  have hsum : shapeCast S512x1 (multiReduction .add [1] S512 (mulf s s) 0x00000000#32 reduces_S512x512_S512 (.inl rfl) rfl)
      shapeCasts_S512_S512x1 (ix2 r u) = ∑ d : Fin 512, s (ix2 r d) * s (ix2 r d) :=
    (Cert.LibColumnLayout.shapeCast_a_a1_apply _ shapeCasts_S512_S512x1 r u).trans
      (Cert.LibColumnLayout.multiReduction_add_rows_apply (mulf s s) 0x00000000#32 reduces_S512x512_S512 (.inl rfl) rfl r)
  show Ideal.rsqrt (Ideal.div (shapeCast S512x1 (multiReduction .add [1] S512 (mulf s s) 0x00000000#32 reduces_S512x512_S512 (.inl rfl) rfl)
      shapeCasts_S512_S512x1 (ix2 r u)) (Ideal.ofBits .f32 0x44000000#32) + Ideal.ofBits .f32 0x358637BD#32) = _
  rw [hsum]
  rfl

/-- The weights laid along a row and repeated down the 512 rows. -/
def gammaRows (v55 : Vec Ideal S512 .f32) : FVec Ideal S512x512 .f32 :=
  broadcastTo S512x512 (shapeCast S1x512 (shapeCast S512 v55 shapeCasts_S512_S512) shapeCasts_S512_S1x512) broadcasts_S1x512_S512x512

theorem gammaRows_at (v55 : Vec Ideal S512 .f32) (r j : Fin 512) : gammaRows v55 (ix2 r j) = v55 (ix1 j) := by
  unfold gammaRows
  rw [shapeCast_self]
  exact (broadcastTo_1b_ab_apply _ broadcasts_S1x512_S512x512 r j).trans
    (shapeCast_a_1a_apply v55 shapeCasts_S512_S1x512 (0 : Fin 1) j)

/-- What a device stores, at row `r` of its half and column `j`: with `s d` the sum of its own and the received half at
    `(r, d)`, it is `s j · rsqrt (mean of the squares of s + ε) · γ j`. -/
theorem pay1_at (v40 : Vec Ideal S1x512x512 .f32) (v42 : Vec Ideal S512x512 .bf16) (v55 : Vec Ideal S512 .f32) (r j : Fin 512) :
    k0_pay1 (F := Ideal) v40 v42 v55 (ix2 r j)
      = (v40 (ix3 (0 : Fin 1) r j) + v42 (ix2 r j))
          * Ideal.rsqrt (meanSqEps fun d => v40 (ix3 (0 : Fin 1) r d) + v42 (ix2 r d)) * v55 (ix1 j) := by
  have e : k0_pay1 (F := Ideal) v40 v42 v55
      = mulf (mulf (sumv v40 v42) (broadcastTo S512x512 (invRoot (sumv v40 v42)) broadcasts_S512x1_S512x512)) (gammaRows v55) := rfl
  rw [e]
  show sumv v40 v42 (ix2 r j) * broadcastTo S512x512 (invRoot (sumv v40 v42)) broadcasts_S512x1_S512x512 (ix2 r j)
      * gammaRows v55 (ix2 r j) = _
  rw [Cert.LibColumnLayout.broadcastTo_a1_ab_apply _ broadcasts_S512x1_S512x512 r j, invRoot_at, gammaRows_at, sumv_at]
  refine congrArg (fun f => (v40 (ix3 (0 : Fin 1) r j) + v42 (ix2 r j)) * Ideal.rsqrt (meanSqEps f) * v55 (ix1 j)) ?_
  exact funext fun d => sumv_at v40 v42 r d

/-! ## Where a device's loads and blocks land -/

/-- What a load of the `1 × 512 × 512` rectangle at offsets `off` returns from a whole `[1, 1024, 512]` buffer holding `X`. -/
abbrev ld (off : Fin 3 → Nat) (h : ∀ a, off a + S1x512x512.size a ≤ S1x1024x512.size a)
    (X : (⟨3, ![1, 1024, 512]⟩ : Shape).Idx → EReal) : Vec Ideal S1x512x512 .f32 :=
  (Memref.whole cc0_stg0_0 : Memref sig .tc .vmem S1x1024x512 .f32).view.readAt (Elt Ideal)
    (Rect.unit (s := S1x1024x512) off S1x512x512.size h).toLoadRect X

/-- The load reads the buffer's contents at the rectangle's placement of the index: offset plus coordinate on each axis. -/
theorem ld_at (off : Fin 3 → Nat) (h : ∀ a, off a + S1x512x512.size a ≤ S1x1024x512.size a)
    (X : (⟨3, ![1, 1024, 512]⟩ : Shape).Idx → EReal) (x : S1x512x512.Idx) :
    ld off h X x = X ((Rect.unit (s := S1x1024x512) off S1x512x512.size h).toLoadRect.idx x) := rfl

/-- On the 2 × 2 × 2 mesh, a `[2, 1024, 512]` array cut along its first axis by the middle mesh axis: device `c` holds
    the block with coordinates `((c / 2) % 2, 0, 0)`. -/
theorem blk3 : ∀ c : Fin 8,
    ((Layout.meshBlock [2, 2, 2] ![[1], [], []] c) 0).val = (c.val / 2) % 2
    ∧ ((Layout.meshBlock [2, 2, 2] ![[1], [], []] c) 1).val = 0
    ∧ ((Layout.meshBlock [2, 2, 2] ![[1], [], []] c) 2).val = 0 := by decide

/-- A `[1024, 512]` array cut along its rows by the middle mesh axis: device `c` holds the block `((c / 2) % 2, 0)`. -/
theorem blk2 : ∀ c : Fin 8,
    ((Layout.meshBlock [2, 2, 2] ![[1], []] c) 0).val = (c.val / 2) % 2
    ∧ ((Layout.meshBlock [2, 2, 2] ![[1], []] c) 1).val = 0 := by decide

/-- An entry of the stack is named by the values of its three coordinates. -/
theorem P_congr (P : (⟨3, ![2, 1024, 512]⟩ : Shape).Idx → EReal) (i : (⟨3, ![2, 1024, 512]⟩ : Shape).Idx)
    (l : Fin 2) (R : Fin 1024) (d : Fin 512) (h0 : (i 0).val = l.val) (h1 : (i 1).val = R.val) (h2 : (i 2).val = d.val) :
    P i = P (ix3 l R d) :=
  congrArg P (funext fun a => Fin.ext (by
    match a with
    | ⟨0, _⟩ => exact h0
    | ⟨1, _⟩ => exact h1
    | ⟨2, _⟩ => exact h2))

/-- The specification at an index named by the values of its two coordinates. -/
theorem G_congr (P : (⟨3, ![2, 1024, 512]⟩ : Shape).Idx → EReal) (γ : (⟨1, ![512]⟩ : Shape).Idx → EReal)
    (i : (⟨2, ![1024, 512]⟩ : Shape).Idx) (R : Fin 1024) (j : Fin 512) (h0 : (i 0).val = R.val) (h1 : (i 1).val = j.val) :
    G P γ i = Gat P γ R j := by
  have e : i = ix2 R j := funext fun a => Fin.ext (by
    match a with
    | ⟨0, _⟩ => exact h0
    | ⟨1, _⟩ => exact h1)
  rw [e, G_ix2]

/-- A load at offsets `(0, o, 0)` from the buffer of a device whose middle mesh coordinate is `l`, at `(0, r, d)`: layer `l`
    of the stack at row `o + r`, column `d`. -/
theorem ld_blockN_at (c' : Fin 8) (off : Fin 3 → Nat) (h : ∀ a, off a + S1x512x512.size a ≤ S1x1024x512.size a)
    (P : (⟨3, ![2, 1024, 512]⟩ : Shape).Idx → EReal) (r d : Fin 512) (l : Fin 2) (R : Fin 1024)
    (hl : (c'.val / 2) % 2 = l.val) (ho0 : off 0 = 0) (ho1 : off 1 + r.val = R.val) (ho2 : off 2 = 0) :
    ld off h ((Layout.blockN ⟨3, ![1, 1024, 512]⟩ ⟨3, ![2, 1024, 512]⟩ (Layout.meshBlock [2, 2, 2] ![[1], [], []] c') P))
      (ix3 (0 : Fin 1) r d) = P (ix3 l R d) := by
  obtain ⟨hb0, hb1, hb2⟩ := blk3 c'
  rw [ld_at, Layout.blockN_apply]
  refine P_congr P _ l R d ?_ ?_ ?_
  · show ((Layout.meshBlock [2, 2, 2] ![[1], [], []] c') 0).val * 1 + (off 0 + 1 * 0) = l.val
    rw [hb0, ho0]; omega
  · show ((Layout.meshBlock [2, 2, 2] ![[1], [], []] c') 1).val * 1024 + (off 1 + 1 * r.val) = R.val
    rw [hb1]; omega
  · show ((Layout.meshBlock [2, 2, 2] ![[1], [], []] c') 2).val * 512 + (off 2 + 1 * d.val) = d.val
    rw [hb2, ho2]; omega

/-- Device `c`'s block of the specification at `(r, j)` is the specification at row `((c / 2) % 2)·512 + r`, column `j`. -/
theorem G_block_at (c : Fin 8) (P : (⟨3, ![2, 1024, 512]⟩ : Shape).Idx → EReal) (γ : (⟨1, ![512]⟩ : Shape).Idx → EReal)
    (r j : Fin 512) (R : Fin 1024) (hR : (c.val / 2) % 2 * 512 + r.val = R.val) :
    (Layout.blockN ⟨2, ![512, 512]⟩ ⟨2, ![1024, 512]⟩ (Layout.meshBlock [2, 2, 2] ![[1], []] c) (G P γ)) (ix2 r j)
      = Gat P γ R j := by
  obtain ⟨hb0, hb1⟩ := blk2 c
  rw [Layout.blockN_apply]
  refine G_congr P γ _ R j ?_ ?_
  · show ((Layout.meshBlock [2, 2, 2] ![[1], []] c) 0).val * 512 + r.val = R.val
    rw [hb0]; exact hR
  · show ((Layout.meshBlock [2, 2, 2] ![[1], []] c) 1).val * 512 + j.val = j.val
    rw [hb1, Nat.zero_mul, Nat.zero_add]

/-- The two layers at one place, added in either order, are the layer sum: addition of extended reals commutes. -/
theorem own_add_recv (P : (⟨3, ![2, 1024, 512]⟩ : Shape).Idx → EReal) (l l' : Fin 2) (hl : l'.val = 1 - l.val)
    (R : Fin 1024) (d : Fin 512) : P (ix3 l R d) + P (ix3 l' R d) = rowSum P R d := by
  have h : (l = 0 ∧ l' = 1) ∨ (l = 1 ∧ l' = 0) := by
    have := l.isLt; have := l'.isLt
    rcases Nat.lt_or_ge l.val 1 with h0 | h0
    · exact .inl ⟨Fin.ext (by omega), Fin.ext (by omega)⟩
    · exact .inr ⟨Fin.ext (by omega), Fin.ext (by omega)⟩
  rcases h with ⟨rfl, rfl⟩ | ⟨rfl, rfl⟩
  · rfl
  · exact add_comm (G := EReal) _ _

/-! ## The main lemma -/

/-- The neighbour's middle mesh coordinate is the other one. -/
theorem nb_coord (c : Dev nD) : (k0_dev1 c / 2) % 2 = 1 - (c.val / 2) % 2 := by
  rw [k0_dev1_eq c]; omega

/-- PER INDEX. What device `c` stores at row `r` of its half and column `j` — from its own buffer `A` (its layer of the
    stack), its neighbour's buffer `Anb` (the other layer) and its weights `g`, all entries real — is its block of the
    specification there. -/
theorem device_at [Cert.Pre_finite_inputs_Kernel.Facts] (c : Dev nD)
    (P : (⟨3, ![2, 1024, 512]⟩ : Shape).Idx → EReal) (γ : (⟨1, ![512]⟩ : Shape).Idx → EReal)
    (A Anb : (⟨3, ![1, 1024, 512]⟩ : Shape).Idx → EReal) (g : (⟨1, ![512]⟩ : Shape).Idx → EReal)
    (hA : A = Layout.blockN ⟨3, ![1, 1024, 512]⟩ ⟨3, ![2, 1024, 512]⟩ (Layout.meshBlock [2, 2, 2] ![[1], [], []] c) P)
    (hAnb : Anb = Layout.blockN ⟨3, ![1, 1024, 512]⟩ ⟨3, ![2, 1024, 512]⟩
      (Layout.meshBlock [2, 2, 2] ![[1], [], []] (⟨k0_dev1 c, k0_dev1_lt c⟩ : Dev nD)) P)
    (hg : g = γ)
    (hpre : Cert.Pre_finite_inputs_Kernel.fn (F := Ideal) A g = (fun _ => 1#1))
    (hprenb : Cert.Pre_finite_inputs_Kernel.fn (F := Ideal) Anb g = (fun _ => 1#1))
    (r j : Fin 512) :
    k0_pay1 (F := Ideal) (ld (k0_off2 c) (k0_off2_inb c) A)
        (k0_pay2 (F := Ideal) (ld (k0_off1 (⟨k0_dev1 c, k0_dev1_lt c⟩ : Dev nD)) (k0_off1_inb (⟨k0_dev1 c, k0_dev1_lt c⟩ : Dev nD)) Anb)) g
        (ix2 r j)
      = (Layout.blockN ⟨2, ![512, 512]⟩ ⟨2, ![1024, 512]⟩ (Layout.meshBlock [2, 2, 2] ![[1], []] c) (G P γ)) (ix2 r j) := by
  have hy : (c.val / 2) % 2 < 2 := Nat.mod_lt _ (by decide)
  have hnb := nb_coord c
  have hr := r.isLt
  -- the two layers' coordinates and the row of the whole array
  obtain ⟨l, hl⟩ : ∃ l : Fin 2, (c.val / 2) % 2 = l.val := ⟨⟨(c.val / 2) % 2, hy⟩, rfl⟩
  obtain ⟨l', hl'⟩ : ∃ l' : Fin 2, (k0_dev1 c / 2) % 2 = l'.val := ⟨⟨(k0_dev1 c / 2) % 2, Nat.mod_lt _ (by decide)⟩, rfl⟩
  obtain ⟨R, hR⟩ : ∃ R : Fin 1024, 512 * ((c.val / 2) % 2) + r.val = R.val := ⟨⟨512 * ((c.val / 2) % 2) + r.val, by omega⟩, rfl⟩
  -- the offsets of the two loads, in closed form
  have o2 := k0_off2_eq c
  have o1 := k0_off1_eq (⟨k0_dev1 c, k0_dev1_lt c⟩ : Dev nD)
  have o2_0 : k0_off2 c 0 = 0 := by rw [o2]; rfl
  have o2_1 : k0_off2 c 1 = 512 * ((c.val / 2) % 2) := by rw [o2]; rfl
  have o2_2 : k0_off2 c 2 = 0 := by rw [o2]; rfl
  have o1_0 : k0_off1 (⟨k0_dev1 c, k0_dev1_lt c⟩ : Dev nD) 0 = 0 := by rw [o1]; rfl
  have o1_1 : k0_off1 (⟨k0_dev1 c, k0_dev1_lt c⟩ : Dev nD) 1 = 512 - 512 * ((k0_dev1 c / 2) % 2) := by rw [o1]; rfl
  have o1_2 : k0_off1 (⟨k0_dev1 c, k0_dev1_lt c⟩ : Dev nD) 2 = 0 := by rw [o1]; rfl
  -- what the two loads read
  have own : ∀ d : Fin 512, ld (k0_off2 c) (k0_off2_inb c) A (ix3 (0 : Fin 1) r d) = P (ix3 l R d) := fun d => by
    rw [hA]
    exact ld_blockN_at c _ _ P r d l R hl o2_0 (by rw [o2_1]; exact hR) o2_2
  have recv : ∀ d : Fin 512, ld (k0_off1 (⟨k0_dev1 c, k0_dev1_lt c⟩ : Dev nD)) (k0_off1_inb (⟨k0_dev1 c, k0_dev1_lt c⟩ : Dev nD)) Anb
      (ix3 (0 : Fin 1) r d) = P (ix3 l' R d) := fun d => by
    rw [hAnb]
    exact ld_blockN_at (⟨k0_dev1 c, k0_dev1_lt c⟩ : Dev nD) _ _ P r d l' R hl' o1_0 (by rw [o1_1]; omega) o1_2
  have hsum : ∀ d : Fin 512, ld (k0_off2 c) (k0_off2_inb c) A (ix3 (0 : Fin 1) r d)
      + ld (k0_off1 (⟨k0_dev1 c, k0_dev1_lt c⟩ : Dev nD)) (k0_off1_inb (⟨k0_dev1 c, k0_dev1_lt c⟩ : Dev nD)) Anb (ix3 (0 : Fin 1) r d)
      = rowSum P R d := fun d => by
    rw [own d, recv d]
    exact own_add_recv P l l' (by omega) R d
  -- every entry read is a real
  have hreal : ∀ d : Fin 512, ∃ x : ℝ, ld (k0_off2 c) (k0_off2_inb c) A (ix3 (0 : Fin 1) r d)
      + ld (k0_off1 (⟨k0_dev1 c, k0_dev1_lt c⟩ : Dev nD)) (k0_off1_inb (⟨k0_dev1 c, k0_dev1_lt c⟩ : Dev nD)) Anb (ix3 (0 : Fin 1) r d)
      = (x : EReal) := fun d =>
    add_real ((real_of_pre A g hpre).1 _) ((real_of_pre Anb g hprenb).1 _)
  rw [pay1_at]
  simp only [pay2_at]
  rw [mul_rsqrt_meanSq _ hreal, G_block_at c P γ r j R (by omega)]
  unfold Gat
  rw [show (fun d : Fin 512 => ld (k0_off2 c) (k0_off2_inb c) A (ix3 (0 : Fin 1) r d)
      + ld (k0_off1 (⟨k0_dev1 c, k0_dev1_lt c⟩ : Dev nD)) (k0_off1_inb (⟨k0_dev1 c, k0_dev1_lt c⟩ : Dev nD)) Anb (ix3 (0 : Fin 1) r d))
      = rowSum P R from funext hsum, hsum j, hg]

/-- THE MAIN LEMMA. Device `c`'s stored `[512, 512]` array is block `(c / 2) % 2` of the specification of the whole arrays. -/
theorem device_block [Cert.Pre_finite_inputs_Kernel.Facts] (c : Dev nD)
    (P : (⟨3, ![2, 1024, 512]⟩ : Shape).Idx → EReal) (γ : (⟨1, ![512]⟩ : Shape).Idx → EReal)
    (A Anb : (⟨3, ![1, 1024, 512]⟩ : Shape).Idx → EReal) (g : (⟨1, ![512]⟩ : Shape).Idx → EReal)
    (hA : A = Layout.blockN ⟨3, ![1, 1024, 512]⟩ ⟨3, ![2, 1024, 512]⟩ (Layout.meshBlock [2, 2, 2] ![[1], [], []] c) P)
    (hAnb : Anb = Layout.blockN ⟨3, ![1, 1024, 512]⟩ ⟨3, ![2, 1024, 512]⟩
      (Layout.meshBlock [2, 2, 2] ![[1], [], []] (⟨k0_dev1 c, k0_dev1_lt c⟩ : Dev nD)) P)
    (hg : g = γ)
    (hpre : Cert.Pre_finite_inputs_Kernel.fn (F := Ideal) A g = (fun _ => 1#1))
    (hprenb : Cert.Pre_finite_inputs_Kernel.fn (F := Ideal) Anb g = (fun _ => 1#1)) :
    k0_pay1 (F := Ideal)
        ((Memref.whole cc0_stg0_0 : Memref sig .tc .vmem S1x1024x512 .f32).view.readAt (Elt Ideal)
          (Rect.unit (s := S1x1024x512) (k0_off2 c) S1x512x512.size (k0_off2_inb c)).toLoadRect A)
        (k0_pay2 (F := Ideal)
          ((Memref.whole cc0_stg0_0 : Memref sig .tc .vmem S1x1024x512 .f32).view.readAt (Elt Ideal)
            (Rect.unit (s := S1x1024x512) (k0_off1 (⟨k0_dev1 c, k0_dev1_lt c⟩ : Dev nD)) S1x512x512.size
              (k0_off1_inb (⟨k0_dev1 c, k0_dev1_lt c⟩ : Dev nD))).toLoadRect Anb))
        g
      = Layout.blockN ⟨2, ![512, 512]⟩ ⟨2, ![1024, 512]⟩ (Layout.meshBlock [2, 2, 2] ![[1], []] c) (G P γ) := by
  funext i
  obtain ⟨r, j, rfl⟩ : ∃ (r : Fin 512) (j : Fin 512), i = ix2 r j := ⟨i 0, i 1, eq_ix2 i⟩
  exact device_at c P γ A Anb g hA hAnb hg hpre hprenb r j

end Cert.RsNorm

end
-- ==== Proof.RsNormJoin.lean ====
/-
  The eight devices' results are the blocks of the one-device program's result.

  What each device's run leaves in its result array is a pure term of the memory at launch: the payload of the
  device's own rows, of what its partner sent (the payload of the partner's rows for this device), and of its
  weights. The window through which a device's body sees an argument array is the whole array (one block, at
  zero offsets), so those terms are over the devices' argument arrays themselves. When the devices' argument
  arrays are their blocks of the one-device program's arrays `P`, `γ` (the device with middle coordinate `y`
  holds layer `y` of `P`, every device a copy of `γ`) and every entry is finite, the main lemma says device
  `c`'s term is block `(c / 2) % 2` of `G P γ`; and the one-device program's result is `G P γ`. So both runs
  are stated with the one value `G P γ`: each device's result its block of it, the one-device program's
  result the whole of it.
-/
import proofs.«900393_g7700000000000394_dist_rsrms_v7x_xyz2x2x2_y_m512_d512_bf16_1_alg».proof.Defs
import proofs.«900393_g7700000000000394_dist_rsrms_v7x_xyz2x2x2_y_m512_d512_bf16_1_alg».proof.Proof.KernelIdeal.Body
import proofs.«900393_g7700000000000394_dist_rsrms_v7x_xyz2x2x2_y_m512_d512_bf16_1_alg».proof.Proof.KernelIdeal.Launch
import proofs.«900393_g7700000000000394_dist_rsrms_v7x_xyz2x2x2_y_m512_d512_bf16_1_alg».proof.Proof.Gen.Pre_finite_inputs_Kernel
import proofs.«900393_g7700000000000394_dist_rsrms_v7x_xyz2x2x2_y_m512_d512_bf16_1_alg».proof.Proof.Gen.Pre_finite_inputs_ReferenceIdeal
import proofs.«900393_g7700000000000394_dist_rsrms_v7x_xyz2x2x2_y_m512_d512_bf16_1_alg».proof.Proof.RsNormSpec
import proofs.«900393_g7700000000000394_dist_rsrms_v7x_xyz2x2x2_y_m512_d512_bf16_1_alg».proof.Proof.RsNormRef
import proofs.«900393_g7700000000000394_dist_rsrms_v7x_xyz2x2x2_y_m512_d512_bf16_1_alg».proof.Proof.RsNormFinite
import proofs.«900393_g7700000000000394_dist_rsrms_v7x_xyz2x2x2_y_m512_d512_bf16_1_alg».proof.Proof.RsNormKernel

noncomputable section

namespace Cert.RsNorm

open Cert.KernelIdeal Cert.KernelIdeal.Gen Cert.KernelIdealProof
open Idealize.ShloMosaic Idealize.ShloMosaic.TcCoe Idealize.SL.Sem

/-! ## A window's one block is the whole array -/

/-- The body sees the stack's layer through a window of one block at zero offsets: the device's whole argument array. -/
theorem pblk_eq (m : (ℓ : Loc nD τ sig) → Buf (Elt Ideal) ℓ) (c : Dev nD) :
    pblk (F := Ideal) m c = m ((c.tc : Thread nD τ).loc main_arg0) := by
  unfold pblk Gen.iblk
  exact Memref.read_access_unit_zero (Elt Ideal) main_arg0 (funext fun a => Nat.zero_mul _) _ _

/-- Likewise the weights. -/
theorem gblk_eq (m : (ℓ : Loc nD τ sig) → Buf (Elt Ideal) ℓ) (c : Dev nD) :
    gblk (F := Ideal) m c = m ((c.tc : Thread nD τ).loc main_arg1) := by
  unfold gblk Gen.iblk
  exact Memref.read_access_unit_zero (Elt Ideal) main_arg1 (funext fun a => Nat.zero_mul _) _ _

/-! ## A device's result is its block of the specification -/

/-- From memories where each device holds its block of the one-device program's stack and a copy of its weights, all
    entries finite: what device `c`'s run leaves in its result array is block `(c / 2) % 2` of the specification of
    the one-device program's arrays. -/
theorem outAt_is_block (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev nD) :
    outAt (F := Ideal) m c
      = Layout.blockN ⟨2, ![512, 512]⟩ ⟨2, ![1024, 512]⟩ (Layout.meshBlock [2, 2, 2] ![[1], []] c)
          (G (m' (((0 : Dev Cert.ReferenceIdeal.nD).tc : Thread Cert.ReferenceIdeal.nD Cert.ReferenceIdeal.τ).loc Cert.ReferenceIdeal.main_arg0))
             (m' (((0 : Dev Cert.ReferenceIdeal.nD).tc : Thread Cert.ReferenceIdeal.nD Cert.ReferenceIdeal.τ).loc Cert.ReferenceIdeal.main_arg1))) := by
  -- the partner's weights are the device's own: both are the one-device program's
  have hγ : (m ((Dev.tc (⟨k0_dev1 c, k0_dev1_lt c⟩ : Dev nD) : Thread nD τ).loc main_arg1) : (⟨1, ![512]⟩ : Shape).Idx → EReal)
      = m ((c.tc : Thread nD τ).loc main_arg1) :=
    (hagree (⟨k0_dev1 c, k0_dev1_lt c⟩ : Dev nD)).2.trans (hagree c).2.symm
  have hprenb : Cert.Pre_finite_inputs_Kernel.fn (F := Ideal)
      (m ((Dev.tc (⟨k0_dev1 c, k0_dev1_lt c⟩ : Dev nD) : Thread nD τ).loc main_arg0)) (m ((c.tc : Thread nD τ).loc main_arg1))
      = (fun _ => 1#1) := by
    rw [← hγ]; exact hpre (⟨k0_dev1 c, k0_dev1_lt c⟩ : Dev nD)
  unfold outAt landed sent
  rw [← dev1_eq c, pblk_eq, pblk_eq, gblk_eq]
  exact device_block c _ _ _ _ _ (hagree c).1 (hagree (⟨k0_dev1 c, k0_dev1_lt c⟩ : Dev nD)).1 (hagree c).2 (hpre c) hprenb

/-! ## The claim -/

/-- At the extended reals, from memories that agree and are finite, both programs run; the one-device program's
    result is `G` of its arrays and each device's result is its block of that. -/
theorem algebraic : Cert.algebraic_KernelIdeal_ReferenceIdeal := by
  intro m g m' g' hpre hagree
  refine ⟨G (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun _ h c => ⟨(h c).1.trans (outAt_is_block m m' hpre hagree c), (h c).2⟩)
      (Cert.KernelIdealProof.run_claim (F := Ideal) m g (Cert.KernelIdealProof.body_obligation m))
  · exact (θ_run Cert.ReferenceIdeal.defs _ _).mono
      (fun _ h => ⟨(h 0).1.trans (ref_is_G ..), (h 0).2⟩)
      (Cert.ReferenceIdeal.Value.run (F := Ideal) m' g')

end Cert.RsNorm

end
-- ==== Proof.lean ====
/-
  The certificate of the eight-device exchange-and-normalise kernel against its one-device reference.

  What is claimed. Eight devices on a 2 × 2 × 2 mesh each hold one of the two summands of a [1024, 512] array (the one
  their y coordinate names) and a copy of a scale vector. Devices that differ only in y work as a pair: each sends its
  partner the half of its summand's rows the partner is responsible for and adds what it receives to its own half, so
  that the device with coordinate y ends with rows 512·y … 512·y + 511 of the sum of the two summands; it then divides
  each row by the root of its mean square plus a small constant and scales by the vector. The reference computes the
  same thing on one device over the whole arrays: the sum over the first axis, each row over the root of its mean
  square plus the same constant, times the vector.

  The five conjuncts.
  * Each of the three programs runs to the end from any memory with finite inputs, faults nowhere and leaves its
    arguments unchanged. For the two kernels (the program as printed, at machine words, and its idealization, at extended
    reals) this is the run of the exchange protocol under the rounds discipline: every device's body is proved once at a
    symbolic device, and the launch theorem turns the eight body proofs into a run of the whole mesh in which no wait
    can block for ever (a device waits on its barrier cell only while it owes a receive credit, and receive cells sit
    above barrier cells in the waiting order). For the reference it is its straight-line run.
  * The idealization rewrote nothing, so it is the printed program read at the extended reals.
  * At the extended reals device c's result is block y of the reference's: the cross-device sum is the reference's sum
    over the first axis (addition commutes), the narrow number format the halves travel in is exact there, and for a
    finite row the product with the reciprocal root of a positive real is the quotient by its root.
-/
import proofs.«900393_g7700000000000394_dist_rsrms_v7x_xyz2x2x2_y_m512_d512_bf16_1_alg».proof.Defs
import proofs.«900393_g7700000000000394_dist_rsrms_v7x_xyz2x2x2_y_m512_d512_bf16_1_alg».proof.Proof.Gen.Kernel
import proofs.«900393_g7700000000000394_dist_rsrms_v7x_xyz2x2x2_y_m512_d512_bf16_1_alg».proof.Proof.Gen.Kernel.Skeleton
import proofs.«900393_g7700000000000394_dist_rsrms_v7x_xyz2x2x2_y_m512_d512_bf16_1_alg».proof.Proof.Gen.Kernel.Launch
import proofs.«900393_g7700000000000394_dist_rsrms_v7x_xyz2x2x2_y_m512_d512_bf16_1_alg».proof.Proof.Gen.Kernel.Points
import proofs.«900393_g7700000000000394_dist_rsrms_v7x_xyz2x2x2_y_m512_d512_bf16_1_alg».proof.Proof.Gen.Kernel.Frame
import proofs.«900393_g7700000000000394_dist_rsrms_v7x_xyz2x2x2_y_m512_d512_bf16_1_alg».proof.Proof.Gen.KernelIdeal
import proofs.«900393_g7700000000000394_dist_rsrms_v7x_xyz2x2x2_y_m512_d512_bf16_1_alg».proof.Proof.Gen.KernelIdeal.Skeleton
import proofs.«900393_g7700000000000394_dist_rsrms_v7x_xyz2x2x2_y_m512_d512_bf16_1_alg».proof.Proof.Gen.KernelIdeal.Launch
import proofs.«900393_g7700000000000394_dist_rsrms_v7x_xyz2x2x2_y_m512_d512_bf16_1_alg».proof.Proof.Gen.KernelIdeal.Points
import proofs.«900393_g7700000000000394_dist_rsrms_v7x_xyz2x2x2_y_m512_d512_bf16_1_alg».proof.Proof.Gen.KernelIdeal.Frame
import proofs.«900393_g7700000000000394_dist_rsrms_v7x_xyz2x2x2_y_m512_d512_bf16_1_alg».proof.Proof.Gen.ReferenceIdeal
import proofs.«900393_g7700000000000394_dist_rsrms_v7x_xyz2x2x2_y_m512_d512_bf16_1_alg».proof.Proof.Gen.ReferenceIdeal.Run
import proofs.«900393_g7700000000000394_dist_rsrms_v7x_xyz2x2x2_y_m512_d512_bf16_1_alg».proof.Proof.Gen.ReferenceIdeal.Read
import proofs.«900393_g7700000000000394_dist_rsrms_v7x_xyz2x2x2_y_m512_d512_bf16_1_alg».proof.Proof.Gen.Pre_finite_inputs_Kernel
import proofs.«900393_g7700000000000394_dist_rsrms_v7x_xyz2x2x2_y_m512_d512_bf16_1_alg».proof.Proof.Gen.Pre_finite_inputs_ReferenceIdeal
import proofs.«900393_g7700000000000394_dist_rsrms_v7x_xyz2x2x2_y_m512_d512_bf16_1_alg».proof.Proof.Kernel.Body
import proofs.«900393_g7700000000000394_dist_rsrms_v7x_xyz2x2x2_y_m512_d512_bf16_1_alg».proof.Proof.Kernel.Launch
import proofs.«900393_g7700000000000394_dist_rsrms_v7x_xyz2x2x2_y_m512_d512_bf16_1_alg».proof.Proof.KernelIdeal.Body
import proofs.«900393_g7700000000000394_dist_rsrms_v7x_xyz2x2x2_y_m512_d512_bf16_1_alg».proof.Proof.KernelIdeal.Launch
import proofs.«900393_g7700000000000394_dist_rsrms_v7x_xyz2x2x2_y_m512_d512_bf16_1_alg».proof.Proof.RsNormJoin
import Idealize.ShloMosaic.Adequacy
import Idealize.ShloMosaic.Init

noncomputable section

namespace Cert.Proof

open Idealize.ShloMosaic Idealize.SL.Sem

/-- The printed kernel, at machine words: the mesh's run with the result forgotten. -/
theorem frame_kernel : Cert.frame_Kernel := fun m ρ _ =>
  (θ_run (Cert.Kernel.defs (F := Bits)) _ _).mono (fun _ h c => (h c).2)
    (Cert.KernelProof.run_claim (F := Bits) m ρ (Cert.KernelProof.body_obligation m))

/-- The idealized kernel, at extended reals: the same run. -/
theorem frame_kernelIdeal : Cert.frame_KernelIdeal := fun m ρ _ =>
  (θ_run (Cert.KernelIdeal.defs (F := Ideal)) _ _).mono (fun _ h c => (h c).2)
    (Cert.KernelIdealProof.run_claim (F := Ideal) m ρ (Cert.KernelIdealProof.body_obligation m))

/-- The reference: its straight-line run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_reference, trivial, Cert.RsNorm.algebraic⟩

end Cert.Proof

end
